-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x8 : Shape := ⟨2, ![1024, 8]⟩
abbrev S8x4 : Shape := ⟨2, ![8, 4]⟩
abbrev S65536x8 : Shape := ⟨2, ![65536, 8]⟩
abbrev S65536 : Shape := ⟨1, ![65536]⟩
abbrev S_ : Shape := ⟨0, ![]⟩

class Facts : Prop where
  bcast_S_S1024x8 : S_.BroadcastsInDim S1024x8 (![] : Fin 0 → Fin S1024x8.rank)
  reducesTo_S1024x8_S_d0_1 : S1024x8.ReducesTo [0, 1] S_
  h_S_ : 0 < S_.numel
  bcast_S_S8x4 : S_.BroadcastsInDim S8x4 (![] : Fin 0 → Fin S8x4.rank)
  reducesTo_S8x4_S_d0_1 : S8x4.ReducesTo [0, 1] S_
  bcast_S_S65536x8 : S_.BroadcastsInDim S65536x8 (![] : Fin 0 → Fin S65536x8.rank)
  reducesTo_S65536x8_S_d0_1 : S65536x8.ReducesTo [0, 1] S_
  bcast_S_S65536 : S_.BroadcastsInDim S65536 (![] : Fin 0 → Fin S65536.rank)
  reducesTo_S65536_S_d0 : S65536.ReducesTo [0] S_

variable [Facts]

def fn_part1 {F : FTy → Type} [FloatOps F] (main_arg4 : FVec F S65536 .f32) (main_v13 : IVec S_ 1) (main_v16 : IVec S65536x8 1) : IVec S_ 1 :=
  let main_c_5 : IVec S_ 1 := constantI S_ 1 1#1
  let main_v17 : IVec S_ 1 := (fun x v => Host.reduce IntOp.andi x v reducesTo_S65536x8_S_d0_1 h_S_) main_v16 main_c_5
  let main_v18 : IVec S_ 1 := andi main_v13 main_v17
  let main_v19 : FVec F S65536 .f32 := Host.absf main_arg4
  let main_cst_6 : FVec F S_ .f32 := constant S_ .f32 0x7F800000#32
  let main_v20 : FVec F S65536 .f32 := broadcastInDim S65536 ![] bcast_S_S65536 main_cst_6
  let main_v21 : IVec S65536 1 := cmpf .olt main_v19 main_v20
  let main_c_7 : IVec S_ 1 := constantI S_ 1 1#1
  let main_v22 : IVec S_ 1 := (fun x v => Host.reduce IntOp.andi x v reducesTo_S65536_S_d0 h_S_) main_v21 main_c_7
  let main_v23 : IVec S_ 1 := andi main_v18 main_v22
  main_v23

def fn {F : FTy → Type} [FloatOps F] (main_arg0 : FVec F S1024x8 .f32) (main_arg1 : FVec F S8x4 .f32) (main_arg2 : FVec F S8x4 .f32) (main_arg3 : FVec F S65536x8 .f32) (main_arg4 : FVec F S65536 .f32) : IVec S_ 1 :=
  let main_v0 : FVec F S1024x8 .f32 := Host.absf main_arg0
  let main_cst : FVec F S_ .f32 := constant S_ .f32 0x7F800000#32
  let main_v1 : FVec F S1024x8 .f32 := broadcastInDim S1024x8 ![] bcast_S_S1024x8 main_cst
  let main_v2 : IVec S1024x8 1 := cmpf .olt main_v0 main_v1
  let main_c : IVec S_ 1 := constantI S_ 1 1#1
  let main_v3 : IVec S_ 1 := (fun x v => Host.reduce IntOp.andi x v reducesTo_S1024x8_S_d0_1 h_S_) main_v2 main_c
  let main_v4 : FVec F S8x4 .f32 := Host.absf main_arg1
  let main_cst_0 : FVec F S_ .f32 := constant S_ .f32 0x7F800000#32
  let main_v5 : FVec F S8x4 .f32 := broadcastInDim S8x4 ![] bcast_S_S8x4 main_cst_0
  let main_v6 : IVec S8x4 1 := cmpf .olt main_v4 main_v5
  let main_c_1 : IVec S_ 1 := constantI S_ 1 1#1
  let main_v7 : IVec S_ 1 := (fun x v => Host.reduce IntOp.andi x v reducesTo_S8x4_S_d0_1 h_S_) main_v6 main_c_1
  let main_v8 : IVec S_ 1 := andi main_v3 main_v7
  let main_v9 : FVec F S8x4 .f32 := Host.absf main_arg2
  let main_cst_2 : FVec F S_ .f32 := constant S_ .f32 0x7F800000#32
  let main_v10 : FVec F S8x4 .f32 := broadcastInDim S8x4 ![] bcast_S_S8x4 main_cst_2
  let main_v11 : IVec S8x4 1 := cmpf .olt main_v9 main_v10
  let main_c_3 : IVec S_ 1 := constantI S_ 1 1#1
  let main_v12 : IVec S_ 1 := (fun x v => Host.reduce IntOp.andi x v reducesTo_S8x4_S_d0_1 h_S_) main_v11 main_c_3
  let main_v13 : IVec S_ 1 := andi main_v8 main_v12
  let main_v14 : FVec F S65536x8 .f32 := Host.absf main_arg3
  let main_cst_4 : FVec F S_ .f32 := constant S_ .f32 0x7F800000#32
  let main_v15 : FVec F S65536x8 .f32 := broadcastInDim S65536x8 ![] bcast_S_S65536x8 main_cst_4
  let main_v16 : IVec S65536x8 1 := cmpf .olt main_v14 main_v15
  fn_part1 (F := F) main_arg4 main_v13 main_v16
-- ==== Kernel.lean ====
abbrev S1024x8 : Shape := ⟨2, ![1024, 8]⟩
abbrev S8x4 : Shape := ⟨2, ![8, 4]⟩
abbrev S65536x8 : Shape := ⟨2, ![65536, 8]⟩
abbrev S65536 : Shape := ⟨1, ![65536]⟩
abbrev S_ : Shape := ⟨0, ![]⟩
abbrev S1024x8x1 : Shape := ⟨3, ![1024, 8, 1]⟩
abbrev S1x8x4 : Shape := ⟨3, ![1, 8, 4]⟩
abbrev S1024x8x4 : Shape := ⟨3, ![1024, 8, 4]⟩
abbrev S1024x4x4 : Shape := ⟨3, ![1024, 4, 4]⟩
abbrev S1024x1x4 : Shape := ⟨3, ![1024, 1, 4]⟩
abbrev S1024x4 : Shape := ⟨2, ![1024, 4]⟩
abbrev S1024x4x1 : Shape := ⟨3, ![1024, 4, 1]⟩
abbrev S1024x16 : Shape := ⟨2, ![1024, 16]⟩
abbrev S1024x16x1 : Shape := ⟨3, ![1024, 16, 1]⟩
abbrev S1024x16x4 : Shape := ⟨3, ![1024, 16, 4]⟩
abbrev S1024x64 : Shape := ⟨2, ![1024, 64]⟩
abbrev S1024x64x1 : Shape := ⟨3, ![1024, 64, 1]⟩
abbrev S1024x64x4 : Shape := ⟨3, ![1024, 64, 4]⟩
abbrev S1024x256 : Shape := ⟨2, ![1024, 256]⟩
abbrev S256x256x8 : Shape := ⟨3, ![256, 256, 8]⟩
abbrev S256x256 : Shape := ⟨2, ![256, 256]⟩
abbrev S256x8x256 : Shape := ⟨3, ![256, 8, 256]⟩
abbrev S256x2048 : Shape := ⟨2, ![256, 2048]⟩
abbrev S256x2304 : Shape := ⟨2, ![256, 2304]⟩
abbrev S1024x1 : Shape := ⟨2, ![1024, 1]⟩
abbrev S512x8 : Shape := ⟨2, ![512, 8]⟩
abbrev S512x256 : Shape := ⟨2, ![512, 256]⟩
abbrev S512x1 : Shape := ⟨2, ![512, 1]⟩
abbrev S512x2304 : Shape := ⟨2, ![512, 2304]⟩
abbrev S512 : Shape := ⟨1, ![512]⟩

abbrev nBuf : Space → Nat
  | .hbm => 89
  | .vmem => 9
  | .smem => 0
  | _ => 0

abbrev bufTy : (tb : Table) → Fin (tcTables nBuf tb) → BufTy
  | .hbm, ⟨0, _⟩ => ⟨S1024x8, .f32⟩
  | .hbm, ⟨1, _⟩ => ⟨S8x4, .f32⟩
  | .hbm, ⟨2, _⟩ => ⟨S8x4, .f32⟩
  | .hbm, ⟨3, _⟩ => ⟨S65536x8, .f32⟩
  | .hbm, ⟨4, _⟩ => ⟨S65536, .f32⟩
  | .hbm, ⟨5, _⟩ => ⟨S8x4, .f32⟩
  | .hbm, ⟨6, _⟩ => ⟨S_, .f32⟩
  | .hbm, ⟨7, _⟩ => ⟨S8x4, .f32⟩
  | .hbm, ⟨8, _⟩ => ⟨S8x4, .f32⟩
  | .hbm, ⟨9, _⟩ => ⟨S8x4, .f32⟩
  | .hbm, ⟨10, _⟩ => ⟨S_, .f32⟩
  | .hbm, ⟨11, _⟩ => ⟨S8x4, .f32⟩
  | .hbm, ⟨12, _⟩ => ⟨S8x4, .f32⟩
  | .hbm, ⟨13, _⟩ => ⟨S_, .f32⟩
  | .hbm, ⟨14, _⟩ => ⟨S8x4, .f32⟩
  | .hbm, ⟨15, _⟩ => ⟨S8x4, .f32⟩
  | .hbm, ⟨16, _⟩ => ⟨S1024x8x1, .f32⟩
  | .hbm, ⟨17, _⟩ => ⟨S1x8x4, .f32⟩
  | .hbm, ⟨18, _⟩ => ⟨S1024x8x4, .f32⟩
  | .hbm, ⟨19, _⟩ => ⟨S1024x8x4, .f32⟩
  | .hbm, ⟨20, _⟩ => ⟨S1024x8x4, .f32⟩
  | .hbm, ⟨21, _⟩ => ⟨S1024x8x4, .f32⟩
  | .hbm, ⟨22, _⟩ => ⟨S1024x8x4, .f32⟩
  | .hbm, ⟨23, _⟩ => ⟨S1x8x4, .f32⟩
  | .hbm, ⟨24, _⟩ => ⟨S1024x8x4, .f32⟩
  | .hbm, ⟨25, _⟩ => ⟨S1024x8x4, .f32⟩
  | .hbm, ⟨26, _⟩ => ⟨S1024x8x4, .f32⟩
  | .hbm, ⟨27, _⟩ => ⟨S1024x4x4, .f32⟩
  | .hbm, ⟨28, _⟩ => ⟨S1024x1x4, .f32⟩
  | .hbm, ⟨29, _⟩ => ⟨S1024x4, .f32⟩
  | .hbm, ⟨30, _⟩ => ⟨S1024x4x1, .f32⟩
  | .hbm, ⟨31, _⟩ => ⟨S1024x1x4, .f32⟩
  | .hbm, ⟨32, _⟩ => ⟨S1024x4, .f32⟩
  | .hbm, ⟨33, _⟩ => ⟨S1024x1x4, .f32⟩
  | .hbm, ⟨34, _⟩ => ⟨S1024x4x4, .f32⟩
  | .hbm, ⟨35, _⟩ => ⟨S1024x4x4, .f32⟩
  | .hbm, ⟨36, _⟩ => ⟨S1024x4x4, .f32⟩
  | .hbm, ⟨37, _⟩ => ⟨S1024x16, .f32⟩
  | .hbm, ⟨38, _⟩ => ⟨S1024x16x1, .f32⟩
  | .hbm, ⟨39, _⟩ => ⟨S1024x1x4, .f32⟩
  | .hbm, ⟨40, _⟩ => ⟨S1024x4, .f32⟩
  | .hbm, ⟨41, _⟩ => ⟨S1024x1x4, .f32⟩
  | .hbm, ⟨42, _⟩ => ⟨S1024x16x4, .f32⟩
  | .hbm, ⟨43, _⟩ => ⟨S1024x16x4, .f32⟩
  | .hbm, ⟨44, _⟩ => ⟨S1024x16x4, .f32⟩
  | .hbm, ⟨45, _⟩ => ⟨S1024x64, .f32⟩
  | .hbm, ⟨46, _⟩ => ⟨S1024x64x1, .f32⟩
  | .hbm, ⟨47, _⟩ => ⟨S1024x1x4, .f32⟩
  | .hbm, ⟨48, _⟩ => ⟨S1024x4, .f32⟩
  | .hbm, ⟨49, _⟩ => ⟨S1024x1x4, .f32⟩
  | .hbm, ⟨50, _⟩ => ⟨S1024x64x4, .f32⟩
  | .hbm, ⟨51, _⟩ => ⟨S1024x64x4, .f32⟩
  | .hbm, ⟨52, _⟩ => ⟨S1024x64x4, .f32⟩
  | .hbm, ⟨53, _⟩ => ⟨S1024x256, .f32⟩
  | .hbm, ⟨54, _⟩ => ⟨S1024x4x4, .f32⟩
  | .hbm, ⟨55, _⟩ => ⟨S1024x1x4, .f32⟩
  | .hbm, ⟨56, _⟩ => ⟨S1024x4, .f32⟩
  | .hbm, ⟨57, _⟩ => ⟨S1024x4x1, .f32⟩
  | .hbm, ⟨58, _⟩ => ⟨S1024x1x4, .f32⟩
  | .hbm, ⟨59, _⟩ => ⟨S1024x4, .f32⟩
  | .hbm, ⟨60, _⟩ => ⟨S1024x1x4, .f32⟩
  | .hbm, ⟨61, _⟩ => ⟨S1024x4x4, .f32⟩
  | .hbm, ⟨62, _⟩ => ⟨S1024x4x4, .f32⟩
  | .hbm, ⟨63, _⟩ => ⟨S1024x4x4, .f32⟩
  | .hbm, ⟨64, _⟩ => ⟨S1024x16, .f32⟩
  | .hbm, ⟨65, _⟩ => ⟨S1024x16x1, .f32⟩
  | .hbm, ⟨66, _⟩ => ⟨S1024x1x4, .f32⟩
  | .hbm, ⟨67, _⟩ => ⟨S1024x4, .f32⟩
  | .hbm, ⟨68, _⟩ => ⟨S1024x1x4, .f32⟩
  | .hbm, ⟨69, _⟩ => ⟨S1024x16x4, .f32⟩
  | .hbm, ⟨70, _⟩ => ⟨S1024x16x4, .f32⟩
  | .hbm, ⟨71, _⟩ => ⟨S1024x16x4, .f32⟩
  | .hbm, ⟨72, _⟩ => ⟨S1024x64, .f32⟩
  | .hbm, ⟨73, _⟩ => ⟨S1024x64x1, .f32⟩
  | .hbm, ⟨74, _⟩ => ⟨S1024x1x4, .f32⟩
  | .hbm, ⟨75, _⟩ => ⟨S1024x4, .f32⟩
  | .hbm, ⟨76, _⟩ => ⟨S1024x1x4, .f32⟩
  | .hbm, ⟨77, _⟩ => ⟨S1024x64x4, .f32⟩
  | .hbm, ⟨78, _⟩ => ⟨S1024x64x4, .f32⟩
  | .hbm, ⟨79, _⟩ => ⟨S1024x64x4, .f32⟩
  | .hbm, ⟨80, _⟩ => ⟨S1024x256, .f32⟩
  | .hbm, ⟨81, _⟩ => ⟨S256x256x8, .f32⟩
  | .hbm, ⟨82, _⟩ => ⟨S256x256, .f32⟩
  | .hbm, ⟨83, _⟩ => ⟨S256x8x256, .f32⟩
  | .hbm, ⟨84, _⟩ => ⟨S256x2048, .f32⟩
  | .hbm, ⟨85, _⟩ => ⟨S256x256, .f32⟩
  | .hbm, ⟨86, _⟩ => ⟨S256x2304, .f32⟩
  | .hbm, ⟨87, _⟩ => ⟨S256x2304, .bf16⟩
  | .hbm, ⟨88, _⟩ => ⟨S1024x1, .f32⟩
  | .local _ .vmem, ⟨0, _⟩ => ⟨S512x8, .f32⟩
  | .local _ .vmem, ⟨1, _⟩ => ⟨S512x8, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S256x2304, .bf16⟩
  | .local _ .vmem, ⟨7, _⟩ => ⟨S512x1, .f32⟩
  | .local _ .vmem, ⟨8, _⟩ => ⟨S512x1, .f32⟩
  | _, _ => ⟨S1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S8x4 : S_.BroadcastsInDim S8x4 (![] : Fin 0 → Fin S8x4.rank)
  bcast_S1024x8_S1024x8x1_0_1 : S1024x8.BroadcastsInDim S1024x8x1 (![0, 1] : Fin 2 → Fin S1024x8x1.rank)
  bcast_S8x4_S1x8x4_1_2 : S8x4.BroadcastsInDim S1x8x4 (![1, 2] : Fin 2 → Fin S1x8x4.rank)
  bcast_S1024x8x1_S1024x8x4_0_1_2 : S1024x8x1.BroadcastsInDim S1024x8x4 (![0, 1, 2] : Fin 3 → Fin S1024x8x4.rank)
  bcast_S1x8x4_S1024x8x4_0_1_2 : S1x8x4.BroadcastsInDim S1024x8x4 (![0, 1, 2] : Fin 3 → Fin S1024x8x4.rank)
  slices_S1024x8x4_S1024x4x4_0_0_0 : S1024x8x4.Slices ![0, 0, 0] S1024x4x4
  slices_S1024x4x4_S1024x1x4_0_0_0 : S1024x4x4.Slices ![0, 0, 0] S1024x1x4
  shapeCasts_S1024x1x4_S1024x4 : S1024x1x4.ShapeCasts S1024x4
  bcast_S1024x4_S1024x4x1_0_1 : S1024x4.BroadcastsInDim S1024x4x1 (![0, 1] : Fin 2 → Fin S1024x4x1.rank)
  slices_S1024x4x4_S1024x1x4_0_1_0 : S1024x4x4.Slices ![0, 1, 0] S1024x1x4
  bcast_S1024x4_S1024x1x4_0_2 : S1024x4.BroadcastsInDim S1024x1x4 (![0, 2] : Fin 2 → Fin S1024x1x4.rank)
  bcast_S1024x4x1_S1024x4x4_0_1_2 : S1024x4x1.BroadcastsInDim S1024x4x4 (![0, 1, 2] : Fin 3 → Fin S1024x4x4.rank)
  bcast_S1024x1x4_S1024x4x4_0_1_2 : S1024x1x4.BroadcastsInDim S1024x4x4 (![0, 1, 2] : Fin 3 → Fin S1024x4x4.rank)
  shapeCasts_S1024x4x4_S1024x16 : S1024x4x4.ShapeCasts S1024x16
  bcast_S1024x16_S1024x16x1_0_1 : S1024x16.BroadcastsInDim S1024x16x1 (![0, 1] : Fin 2 → Fin S1024x16x1.rank)
  slices_S1024x4x4_S1024x1x4_0_2_0 : S1024x4x4.Slices ![0, 2, 0] S1024x1x4
  bcast_S1024x16x1_S1024x16x4_0_1_2 : S1024x16x1.BroadcastsInDim S1024x16x4 (![0, 1, 2] : Fin 3 → Fin S1024x16x4.rank)
  bcast_S1024x1x4_S1024x16x4_0_1_2 : S1024x1x4.BroadcastsInDim S1024x16x4 (![0, 1, 2] : Fin 3 → Fin S1024x16x4.rank)
  shapeCasts_S1024x16x4_S1024x64 : S1024x16x4.ShapeCasts S1024x64
  bcast_S1024x64_S1024x64x1_0_1 : S1024x64.BroadcastsInDim S1024x64x1 (![0, 1] : Fin 2 → Fin S1024x64x1.rank)
  slices_S1024x4x4_S1024x1x4_0_3_0 : S1024x4x4.Slices ![0, 3, 0] S1024x1x4
  bcast_S1024x64x1_S1024x64x4_0_1_2 : S1024x64x1.BroadcastsInDim S1024x64x4 (![0, 1, 2] : Fin 3 → Fin S1024x64x4.rank)
  bcast_S1024x1x4_S1024x64x4_0_1_2 : S1024x1x4.BroadcastsInDim S1024x64x4 (![0, 1, 2] : Fin 3 → Fin S1024x64x4.rank)
  shapeCasts_S1024x64x4_S1024x256 : S1024x64x4.ShapeCasts S1024x256
  slices_S1024x8x4_S1024x4x4_0_4_0 : S1024x8x4.Slices ![0, 4, 0] S1024x4x4
  shapeCasts_S65536x8_S256x256x8 : S65536x8.ShapeCasts S256x256x8
  shapeCasts_S65536_S256x256 : S65536.ShapeCasts S256x256
  transposes_S256x256x8_S256x8x256_1_2_0 : S256x256x8.Transposes [1, 2, 0] S256x8x256
  shapeCasts_S256x8x256_S256x2048 : S256x8x256.ShapeCasts S256x2048
  transposes_S256x256_S256x256_1_0 : S256x256.Transposes [1, 0] S256x256
  concatenates_S256x2048_S256x256_S256x2304_d1 : Shape.Concatenates [S256x2048, S256x256] S256x2304 1
  bitsLt_bf16_f32 : FTy.bits .bf16 < FTy.bits .f32
  inb_S512x8_S512x8_0_0 : ∀ a, (![0, 0] : Fin 2 → Nat) a + S512x8.size a ≤ S512x8.size a
  h_S512x8 : 0 < S512x8.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x2304_S256x2304_0_0 : ∀ a, (![0, 0] : Fin 2 → Nat) a + S256x2304.size a ≤ S256x2304.size a
  h_S256x2304 : 0 < S256x2304.numel
  shapeCasts_S256x2304_S256x2304 : S256x2304.ShapeCasts S256x2304
  slices_S512x2304_o0_2048_S512x256 : S512x2304.Slices ![0, 2048] S512x256
  slices_S512x2304_o0_0_S512x256 : S512x2304.Slices ![0, 0] S512x256
  slices_S512x8_o0_0_S512x1 : S512x8.Slices ![0, 0] S512x1
  broadcasts_S512x1_S512x256 : S512x1.Broadcasts S512x256
  slices_S512x2304_o0_256_S512x256 : S512x2304.Slices ![0, 256] S512x256
  slices_S512x8_o0_1_S512x1 : S512x8.Slices ![0, 1] S512x1
  slices_S512x2304_o0_512_S512x256 : S512x2304.Slices ![0, 512] S512x256
  slices_S512x8_o0_2_S512x1 : S512x8.Slices ![0, 2] S512x1
  slices_S512x2304_o0_768_S512x256 : S512x2304.Slices ![0, 768] S512x256
  slices_S512x8_o0_3_S512x1 : S512x8.Slices ![0, 3] S512x1
  slices_S512x2304_o0_1024_S512x256 : S512x2304.Slices ![0, 1024] S512x256
  slices_S512x8_o0_4_S512x1 : S512x8.Slices ![0, 4] S512x1
  slices_S512x2304_o0_1280_S512x256 : S512x2304.Slices ![0, 1280] S512x256
  slices_S512x8_o0_5_S512x1 : S512x8.Slices ![0, 5] S512x1
  slices_S512x2304_o0_1536_S512x256 : S512x2304.Slices ![0, 1536] S512x256
  slices_S512x8_o0_6_S512x1 : S512x8.Slices ![0, 6] S512x1
  slices_S512x2304_o0_1792_S512x256 : S512x2304.Slices ![0, 1792] S512x256
  slices_S512x8_o0_7_S512x1 : S512x8.Slices ![0, 7] S512x1
  reduces_S512x256_S512 : S512x256.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  dot_S512x256_S256x2304_S512x2304_1_0_0_1_n_n_wf : DotDims.WF S512x256 S256x2304 S512x2304 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8.size a ≤ S1024x8.size a
  hwx0_0 : ∀ i : grid0.Coords, EltTy.bits .f32 = 32 ∨ (Rect.block (s := S1024x8) S512x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S1024x256.size a
  hwx0_1 : ∀ i : grid0.Coords, EltTy.bits .f32 = 32 ∨ (Rect.block (s := S1024x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S1024x256.size a
  hwx0_2 : ∀ i : grid0.Coords, EltTy.bits .f32 = 32 ∨ (Rect.block (s := S1024x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2304.size a ≤ S256x2304.size a
  hwx0_3 : ∀ i : grid0.Coords, EltTy.bits .bf16 = 32 ∨ (Rect.block (s := S256x2304) S256x2304.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S1024x1.size a
  hwx0_4 : ∀ i : grid0.Coords, EltTy.bits .f32 = 32 ∨ (Rect.block (s := S1024x1) S512x1.size (cc0_transform_4 i) (hinb0_4 i)).WholeWords (EltTy.packing .f32)

variable [Facts₀]

def dot_S512x256_S256x2304_S512x2304_1_0_0_1_n_n : DotDims S512x256 S256x2304 S512x2304 where
  lhsContracting := [1]
  rhsContracting := [0]
  lhsNonContracting := [0]
  rhsNonContracting := [1]
  lhsBatch := []
  rhsBatch := []
  wf := dot_S512x256_S256x2304_S512x2304_1_0_0_1_n_n_wf

abbrev win0_0 : Pipeline.Window sig grid0 :=
  Pipeline.Window.ofSpec (Memref.whole main_arg0) S512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v72) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v79) S256x2304.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v80) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x8 : Shape := ⟨2, ![1024, 8]⟩
abbrev S8x4 : Shape := ⟨2, ![8, 4]⟩
abbrev S65536x8 : Shape := ⟨2, ![65536, 8]⟩
abbrev S65536 : Shape := ⟨1, ![65536]⟩
abbrev S_ : Shape := ⟨0, ![]⟩
abbrev S1024x8x1 : Shape := ⟨3, ![1024, 8, 1]⟩
abbrev S1x8x4 : Shape := ⟨3, ![1, 8, 4]⟩
abbrev S1024x8x4 : Shape := ⟨3, ![1024, 8, 4]⟩
abbrev S1024x1x4 : Shape := ⟨3, ![1024, 1, 4]⟩
abbrev S1024x4 : Shape := ⟨2, ![1024, 4]⟩
abbrev S1024x4x1 : Shape := ⟨3, ![1024, 4, 1]⟩
abbrev S1024x4x4 : Shape := ⟨3, ![1024, 4, 4]⟩
abbrev S1024x16 : Shape := ⟨2, ![1024, 16]⟩
abbrev S1024x16x1 : Shape := ⟨3, ![1024, 16, 1]⟩
abbrev S1024x16x4 : Shape := ⟨3, ![1024, 16, 4]⟩
abbrev S1024x64 : Shape := ⟨2, ![1024, 64]⟩
abbrev S1024x64x1 : Shape := ⟨3, ![1024, 64, 1]⟩
abbrev S1024x64x4 : Shape := ⟨3, ![1024, 64, 4]⟩
abbrev S1024x256 : Shape := ⟨2, ![1024, 256]⟩
abbrev S1024x256x1 : Shape := ⟨3, ![1024, 256, 1]⟩
abbrev S1024x256x4 : Shape := ⟨3, ![1024, 256, 4]⟩
abbrev S1024x1024 : Shape := ⟨2, ![1024, 1024]⟩
abbrev S1024x1024x1 : Shape := ⟨3, ![1024, 1024, 1]⟩
abbrev S1024x1024x4 : Shape := ⟨3, ![1024, 1024, 4]⟩
abbrev S1024x4096 : Shape := ⟨2, ![1024, 4096]⟩
abbrev S1024x4096x1 : Shape := ⟨3, ![1024, 4096, 1]⟩
abbrev S1024x4096x4 : Shape := ⟨3, ![1024, 4096, 4]⟩
abbrev S1024x16384 : Shape := ⟨2, ![1024, 16384]⟩
abbrev S1024x16384x1 : Shape := ⟨3, ![1024, 16384, 1]⟩
abbrev S1024x16384x4 : Shape := ⟨3, ![1024, 16384, 4]⟩
abbrev S1024x65536 : Shape := ⟨2, ![1024, 65536]⟩
abbrev S1024 : Shape := ⟨1, ![1024]⟩
abbrev S1024x1 : Shape := ⟨2, ![1024, 1]⟩
abbrev S1x65536 : Shape := ⟨2, ![1, 65536]⟩

abbrev nBuf : Space → Nat
  | .hbm => 101
  | .vmem => 0
  | .smem => 0
  | _ => 0

abbrev bufTy : (tb : Table) → Fin (tcTables nBuf tb) → BufTy
  | .hbm, ⟨0, _⟩ => ⟨S1024x8, .f32⟩
  | .hbm, ⟨1, _⟩ => ⟨S8x4, .f32⟩
  | .hbm, ⟨2, _⟩ => ⟨S8x4, .f32⟩
  | .hbm, ⟨3, _⟩ => ⟨S65536x8, .f32⟩
  | .hbm, ⟨4, _⟩ => ⟨S65536, .f32⟩
  | .hbm, ⟨5, _⟩ => ⟨S8x4, .f32⟩
  | .hbm, ⟨6, _⟩ => ⟨S_, .f32⟩
  | .hbm, ⟨7, _⟩ => ⟨S8x4, .f32⟩
  | .hbm, ⟨8, _⟩ => ⟨S8x4, .f32⟩
  | .hbm, ⟨9, _⟩ => ⟨S8x4, .f32⟩
  | .hbm, ⟨10, _⟩ => ⟨S_, .f32⟩
  | .hbm, ⟨11, _⟩ => ⟨S8x4, .f32⟩
  | .hbm, ⟨12, _⟩ => ⟨S8x4, .f32⟩
  | .hbm, ⟨13, _⟩ => ⟨S_, .f32⟩
  | .hbm, ⟨14, _⟩ => ⟨S8x4, .f32⟩
  | .hbm, ⟨15, _⟩ => ⟨S8x4, .f32⟩
  | .hbm, ⟨16, _⟩ => ⟨S1024x8x1, .f32⟩
  | .hbm, ⟨17, _⟩ => ⟨S1x8x4, .f32⟩
  | .hbm, ⟨18, _⟩ => ⟨S1024x8x4, .f32⟩
  | .hbm, ⟨19, _⟩ => ⟨S1024x8x4, .f32⟩
  | .hbm, ⟨20, _⟩ => ⟨S1024x8x4, .f32⟩
  | .hbm, ⟨21, _⟩ => ⟨S1024x8x4, .f32⟩
  | .hbm, ⟨22, _⟩ => ⟨S1024x8x4, .f32⟩
  | .hbm, ⟨23, _⟩ => ⟨S1x8x4, .f32⟩
  | .hbm, ⟨24, _⟩ => ⟨S1024x8x4, .f32⟩
  | .hbm, ⟨25, _⟩ => ⟨S1024x8x4, .f32⟩
  | .hbm, ⟨26, _⟩ => ⟨S1024x8x4, .f32⟩
  | .hbm, ⟨27, _⟩ => ⟨S1024x1x4, .f32⟩
  | .hbm, ⟨28, _⟩ => ⟨S1024x4, .f32⟩
  | .hbm, ⟨29, _⟩ => ⟨S1024x4x1, .f32⟩
  | .hbm, ⟨30, _⟩ => ⟨S1024x1x4, .f32⟩
  | .hbm, ⟨31, _⟩ => ⟨S1024x4, .f32⟩
  | .hbm, ⟨32, _⟩ => ⟨S1024x1x4, .f32⟩
  | .hbm, ⟨33, _⟩ => ⟨S1024x4x4, .f32⟩
  | .hbm, ⟨34, _⟩ => ⟨S1024x4x4, .f32⟩
  | .hbm, ⟨35, _⟩ => ⟨S1024x4x4, .f32⟩
  | .hbm, ⟨36, _⟩ => ⟨S1024x16, .f32⟩
  | .hbm, ⟨37, _⟩ => ⟨S1024x16x1, .f32⟩
  | .hbm, ⟨38, _⟩ => ⟨S1024x1x4, .f32⟩
  | .hbm, ⟨39, _⟩ => ⟨S1024x4, .f32⟩
  | .hbm, ⟨40, _⟩ => ⟨S1024x1x4, .f32⟩
  | .hbm, ⟨41, _⟩ => ⟨S1024x16x4, .f32⟩
  | .hbm, ⟨42, _⟩ => ⟨S1024x16x4, .f32⟩
  | .hbm, ⟨43, _⟩ => ⟨S1024x16x4, .f32⟩
  | .hbm, ⟨44, _⟩ => ⟨S1024x64, .f32⟩
  | .hbm, ⟨45, _⟩ => ⟨S1024x64x1, .f32⟩
  | .hbm, ⟨46, _⟩ => ⟨S1024x1x4, .f32⟩
  | .hbm, ⟨47, _⟩ => ⟨S1024x4, .f32⟩
  | .hbm, ⟨48, _⟩ => ⟨S1024x1x4, .f32⟩
  | .hbm, ⟨49, _⟩ => ⟨S1024x64x4, .f32⟩
  | .hbm, ⟨50, _⟩ => ⟨S1024x64x4, .f32⟩
  | .hbm, ⟨51, _⟩ => ⟨S1024x64x4, .f32⟩
  | .hbm, ⟨52, _⟩ => ⟨S1024x256, .f32⟩
  | .hbm, ⟨53, _⟩ => ⟨S1024x256x1, .f32⟩
  | .hbm, ⟨54, _⟩ => ⟨S1024x1x4, .f32⟩
  | .hbm, ⟨55, _⟩ => ⟨S1024x4, .f32⟩
  | .hbm, ⟨56, _⟩ => ⟨S1024x1x4, .f32⟩
  | .hbm, ⟨57, _⟩ => ⟨S1024x256x4, .f32⟩
  | .hbm, ⟨58, _⟩ => ⟨S1024x256x4, .f32⟩
  | .hbm, ⟨59, _⟩ => ⟨S1024x256x4, .f32⟩
  | .hbm, ⟨60, _⟩ => ⟨S1024x1024, .f32⟩
  | .hbm, ⟨61, _⟩ => ⟨S1024x1024x1, .f32⟩
  | .hbm, ⟨62, _⟩ => ⟨S1024x1x4, .f32⟩
  | .hbm, ⟨63, _⟩ => ⟨S1024x4, .f32⟩
  | .hbm, ⟨64, _⟩ => ⟨S1024x1x4, .f32⟩
  | .hbm, ⟨65, _⟩ => ⟨S1024x1024x4, .f32⟩
  | .hbm, ⟨66, _⟩ => ⟨S1024x1024x4, .f32⟩
  | .hbm, ⟨67, _⟩ => ⟨S1024x1024x4, .f32⟩
  | .hbm, ⟨68, _⟩ => ⟨S1024x4096, .f32⟩
  | .hbm, ⟨69, _⟩ => ⟨S1024x4096x1, .f32⟩
  | .hbm, ⟨70, _⟩ => ⟨S1024x1x4, .f32⟩
  | .hbm, ⟨71, _⟩ => ⟨S1024x4, .f32⟩
  | .hbm, ⟨72, _⟩ => ⟨S1024x1x4, .f32⟩
  | .hbm, ⟨73, _⟩ => ⟨S1024x4096x4, .f32⟩
  | .hbm, ⟨74, _⟩ => ⟨S1024x4096x4, .f32⟩
  | .hbm, ⟨75, _⟩ => ⟨S1024x4096x4, .f32⟩
  | .hbm, ⟨76, _⟩ => ⟨S1024x16384, .f32⟩
  | .hbm, ⟨77, _⟩ => ⟨S1024x16384x1, .f32⟩
  | .hbm, ⟨78, _⟩ => ⟨S1024x1x4, .f32⟩
  | .hbm, ⟨79, _⟩ => ⟨S1024x4, .f32⟩
  | .hbm, ⟨80, _⟩ => ⟨S1024x1x4, .f32⟩
  | .hbm, ⟨81, _⟩ => ⟨S1024x16384x4, .f32⟩
  | .hbm, ⟨82, _⟩ => ⟨S1024x16384x4, .f32⟩
  | .hbm, ⟨83, _⟩ => ⟨S1024x16384x4, .f32⟩
  | .hbm, ⟨84, _⟩ => ⟨S1024x65536, .f32⟩
  | .hbm, ⟨85, _⟩ => ⟨S_, .f32⟩
  | .hbm, ⟨86, _⟩ => ⟨S1024, .f32⟩
  | .hbm, ⟨87, _⟩ => ⟨S1024x1, .f32⟩
  | .hbm, ⟨88, _⟩ => ⟨S_, .f32⟩
  | .hbm, ⟨89, _⟩ => ⟨S1024x1, .f32⟩
  | .hbm, ⟨90, _⟩ => ⟨S1024x1, .f32⟩
  | .hbm, ⟨91, _⟩ => ⟨S1024x65536, .f32⟩
  | .hbm, ⟨92, _⟩ => ⟨S1024x65536, .f32⟩
  | .hbm, ⟨93, _⟩ => ⟨S1024x65536, .f32⟩
  | .hbm, ⟨94, _⟩ => ⟨S1x65536, .f32⟩
  | .hbm, ⟨95, _⟩ => ⟨S1024x65536, .f32⟩
  | .hbm, ⟨96, _⟩ => ⟨S1024x65536, .f32⟩
  | .hbm, ⟨97, _⟩ => ⟨S1024x65536, .f32⟩
  | .hbm, ⟨98, _⟩ => ⟨S_, .f32⟩
  | .hbm, ⟨99, _⟩ => ⟨S1024, .f32⟩
  | .hbm, ⟨100, _⟩ => ⟨S1024x1, .f32⟩
  | _, _ => ⟨S1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_cst_2 : Ref sig .tc := ⟨.hbm, 85, rfl⟩
abbrev main_v77 : Ref sig .tc := ⟨.hbm, 86, rfl⟩
abbrev main_v78 : Ref sig .tc := ⟨.hbm, 87, rfl⟩
abbrev main_cst_3 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_cst_4 : Ref sig .tc := ⟨.hbm, 98, rfl⟩
abbrev main_v88 : Ref sig .tc := ⟨.hbm, 99, rfl⟩
abbrev main_v89 : Ref sig .tc := ⟨.hbm, 100, rfl⟩

abbrev nD : Nat := 1
abbrev τ : Topo := Topo.v7x

variable {F : FTy → Type} [FloatOps F]

class Facts₀ : Prop where
  bcast_S_S8x4 : S_.BroadcastsInDim S8x4 (![] : Fin 0 → Fin S8x4.rank)
  bcast_S1024x8_S1024x8x1_0_1 : S1024x8.BroadcastsInDim S1024x8x1 (![0, 1] : Fin 2 → Fin S1024x8x1.rank)
  bcast_S8x4_S1x8x4_1_2 : S8x4.BroadcastsInDim S1x8x4 (![1, 2] : Fin 2 → Fin S1x8x4.rank)
  bcast_S1024x8x1_S1024x8x4_0_1_2 : S1024x8x1.BroadcastsInDim S1024x8x4 (![0, 1, 2] : Fin 3 → Fin S1024x8x4.rank)
  bcast_S1x8x4_S1024x8x4_0_1_2 : S1x8x4.BroadcastsInDim S1024x8x4 (![0, 1, 2] : Fin 3 → Fin S1024x8x4.rank)
  slices_S1024x8x4_S1024x1x4_0_0_0 : S1024x8x4.Slices ![0, 0, 0] S1024x1x4
  shapeCasts_S1024x1x4_S1024x4 : S1024x1x4.ShapeCasts S1024x4
  bcast_S1024x4_S1024x4x1_0_1 : S1024x4.BroadcastsInDim S1024x4x1 (![0, 1] : Fin 2 → Fin S1024x4x1.rank)
  slices_S1024x8x4_S1024x1x4_0_1_0 : S1024x8x4.Slices ![0, 1, 0] S1024x1x4
  bcast_S1024x4_S1024x1x4_0_2 : S1024x4.BroadcastsInDim S1024x1x4 (![0, 2] : Fin 2 → Fin S1024x1x4.rank)
  bcast_S1024x4x1_S1024x4x4_0_1_2 : S1024x4x1.BroadcastsInDim S1024x4x4 (![0, 1, 2] : Fin 3 → Fin S1024x4x4.rank)
  bcast_S1024x1x4_S1024x4x4_0_1_2 : S1024x1x4.BroadcastsInDim S1024x4x4 (![0, 1, 2] : Fin 3 → Fin S1024x4x4.rank)
  shapeCasts_S1024x4x4_S1024x16 : S1024x4x4.ShapeCasts S1024x16
  bcast_S1024x16_S1024x16x1_0_1 : S1024x16.BroadcastsInDim S1024x16x1 (![0, 1] : Fin 2 → Fin S1024x16x1.rank)
  slices_S1024x8x4_S1024x1x4_0_2_0 : S1024x8x4.Slices ![0, 2, 0] S1024x1x4
  bcast_S1024x16x1_S1024x16x4_0_1_2 : S1024x16x1.BroadcastsInDim S1024x16x4 (![0, 1, 2] : Fin 3 → Fin S1024x16x4.rank)
  bcast_S1024x1x4_S1024x16x4_0_1_2 : S1024x1x4.BroadcastsInDim S1024x16x4 (![0, 1, 2] : Fin 3 → Fin S1024x16x4.rank)
  shapeCasts_S1024x16x4_S1024x64 : S1024x16x4.ShapeCasts S1024x64
  bcast_S1024x64_S1024x64x1_0_1 : S1024x64.BroadcastsInDim S1024x64x1 (![0, 1] : Fin 2 → Fin S1024x64x1.rank)
  slices_S1024x8x4_S1024x1x4_0_3_0 : S1024x8x4.Slices ![0, 3, 0] S1024x1x4
  bcast_S1024x64x1_S1024x64x4_0_1_2 : S1024x64x1.BroadcastsInDim S1024x64x4 (![0, 1, 2] : Fin 3 → Fin S1024x64x4.rank)
  bcast_S1024x1x4_S1024x64x4_0_1_2 : S1024x1x4.BroadcastsInDim S1024x64x4 (![0, 1, 2] : Fin 3 → Fin S1024x64x4.rank)
  shapeCasts_S1024x64x4_S1024x256 : S1024x64x4.ShapeCasts S1024x256
  bcast_S1024x256_S1024x256x1_0_1 : S1024x256.BroadcastsInDim S1024x256x1 (![0, 1] : Fin 2 → Fin S1024x256x1.rank)
  slices_S1024x8x4_S1024x1x4_0_4_0 : S1024x8x4.Slices ![0, 4, 0] S1024x1x4
  bcast_S1024x256x1_S1024x256x4_0_1_2 : S1024x256x1.BroadcastsInDim S1024x256x4 (![0, 1, 2] : Fin 3 → Fin S1024x256x4.rank)
  bcast_S1024x1x4_S1024x256x4_0_1_2 : S1024x1x4.BroadcastsInDim S1024x256x4 (![0, 1, 2] : Fin 3 → Fin S1024x256x4.rank)
  shapeCasts_S1024x256x4_S1024x1024 : S1024x256x4.ShapeCasts S1024x1024
  bcast_S1024x1024_S1024x1024x1_0_1 : S1024x1024.BroadcastsInDim S1024x1024x1 (![0, 1] : Fin 2 → Fin S1024x1024x1.rank)
  slices_S1024x8x4_S1024x1x4_0_5_0 : S1024x8x4.Slices ![0, 5, 0] S1024x1x4
  bcast_S1024x1024x1_S1024x1024x4_0_1_2 : S1024x1024x1.BroadcastsInDim S1024x1024x4 (![0, 1, 2] : Fin 3 → Fin S1024x1024x4.rank)
  bcast_S1024x1x4_S1024x1024x4_0_1_2 : S1024x1x4.BroadcastsInDim S1024x1024x4 (![0, 1, 2] : Fin 3 → Fin S1024x1024x4.rank)
  shapeCasts_S1024x1024x4_S1024x4096 : S1024x1024x4.ShapeCasts S1024x4096
  bcast_S1024x4096_S1024x4096x1_0_1 : S1024x4096.BroadcastsInDim S1024x4096x1 (![0, 1] : Fin 2 → Fin S1024x4096x1.rank)
  slices_S1024x8x4_S1024x1x4_0_6_0 : S1024x8x4.Slices ![0, 6, 0] S1024x1x4
  bcast_S1024x4096x1_S1024x4096x4_0_1_2 : S1024x4096x1.BroadcastsInDim S1024x4096x4 (![0, 1, 2] : Fin 3 → Fin S1024x4096x4.rank)
  bcast_S1024x1x4_S1024x4096x4_0_1_2 : S1024x1x4.BroadcastsInDim S1024x4096x4 (![0, 1, 2] : Fin 3 → Fin S1024x4096x4.rank)
  shapeCasts_S1024x4096x4_S1024x16384 : S1024x4096x4.ShapeCasts S1024x16384
  bcast_S1024x16384_S1024x16384x1_0_1 : S1024x16384.BroadcastsInDim S1024x16384x1 (![0, 1] : Fin 2 → Fin S1024x16384x1.rank)
  slices_S1024x8x4_S1024x1x4_0_7_0 : S1024x8x4.Slices ![0, 7, 0] S1024x1x4
  bcast_S1024x16384x1_S1024x16384x4_0_1_2 : S1024x16384x1.BroadcastsInDim S1024x16384x4 (![0, 1, 2] : Fin 3 → Fin S1024x16384x4.rank)
  bcast_S1024x1x4_S1024x16384x4_0_1_2 : S1024x1x4.BroadcastsInDim S1024x16384x4 (![0, 1, 2] : Fin 3 → Fin S1024x16384x4.rank)
  shapeCasts_S1024x16384x4_S1024x65536 : S1024x16384x4.ShapeCasts S1024x65536
  reducesTo_S1024x65536_S1024_d1 : S1024x65536.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x65536_0_1 : S1024x1.BroadcastsInDim S1024x65536 (![0, 1] : Fin 2 → Fin S1024x65536.rank)
  bcast_S65536_S1x65536_1 : S65536.BroadcastsInDim S1x65536 (![1] : Fin 1 → Fin S1x65536.rank)
  bcast_S1x65536_S1024x65536_0_1 : S1x65536.BroadcastsInDim S1024x65536 (![0, 1] : Fin 2 → Fin S1024x65536.rank)
  dot_S1024x8_S65536x8_S1024x65536_1_1_0_0_n_n_wf : DotDims.WF S1024x8 S65536x8 S1024x65536 [1] [1] [0] [0] [] []

variable [Facts₀]

def dot_S1024x8_S65536x8_S1024x65536_1_1_0_0_n_n : DotDims S1024x8 S65536x8 S1024x65536 where
  lhsContracting := [1]
  rhsContracting := [1]
  lhsNonContracting := [0]
  rhsNonContracting := [0]
  lhsBatch := []
  rhsBatch := []
  wf := dot_S1024x8_S65536x8_S1024x65536_1_1_0_0_n_n_wf

class Facts : Prop extends Facts₀ where

variable [Facts]
-- ==== Proof.RuleSums.lean ====
/-
  The rule sums of a first-order fuzzy inference layer over two groups of inputs, on the extended reals.

  There are 65536 = 256 · 256 rules; rule number r = 256·q + k is the pair (q, k) of a first-group index q and a
  second-group index k, and its firing strength is the product P1 q · P2 k.  The layer's output for one row is
      ∑_r  (w r / (∑ w + ε)) · (∑_i X i · cw r i + cb r).
  Because w r factors, the sum over r splits into a sum over q of P1 q times an inner sum over k, and the sum of the
  strengths is (∑ P1)(∑ P2).  With real entries, nonnegative strengths and ε > 0 the denominator is a nonzero real, so the
  division is a multiplication by a real reciprocal and distributes over the sums.
-/
import Mathlib.Tactic
import Idealize.ShloMosaic.PureOps.Ideal

noncomputable section

namespace Cert.RuleSums

open Idealize.ShloMosaic

/-- Rule number of the pair (q, k): 256·q + k. -/
def pair (q k : Fin 256) : Fin 65536 := ⟨q.val * 256 + k.val, by omega⟩

/-- One slab of the matrix product: the second group's strengths against one column of coefficients. -/
def slabDot (P2 : Fin 256 → EReal) (c : Fin 256 → EReal) : EReal := ∑ k, P2 k * c k

/-- The inner term of the first-group index q: the bias slab plus the eight weight slabs, each scaled by its input,
    added left to right. -/
def inner (X : Fin 8 → EReal) (P2 : Fin 256 → EReal) (cw : Fin 65536 → Fin 8 → EReal) (cb : Fin 65536 → EReal)
    (q : Fin 256) : EReal :=
  ((((((((slabDot P2 (fun k => cb (pair q k))
    + X 0 * slabDot P2 (fun k => cw (pair q k) 0))
    + X 1 * slabDot P2 (fun k => cw (pair q k) 1))
    + X 2 * slabDot P2 (fun k => cw (pair q k) 2))
    + X 3 * slabDot P2 (fun k => cw (pair q k) 3))
    + X 4 * slabDot P2 (fun k => cw (pair q k) 4))
    + X 5 * slabDot P2 (fun k => cw (pair q k) 5))
    + X 6 * slabDot P2 (fun k => cw (pair q k) 6))
    + X 7 * slabDot P2 (fun k => cw (pair q k) 7))

/-- The factored form of one row's output. -/
def kerRow (ε : EReal) (X : Fin 8 → EReal) (P1 P2 : Fin 256 → EReal) (cw : Fin 65536 → Fin 8 → EReal)
    (cb : Fin 65536 → EReal) : EReal :=
  Ideal.div (∑ q, P1 q * inner X P2 cw cb q) ((∑ q, P1 q) * (∑ k, P2 k) + ε)

/-- The rule-by-rule form of one row's output. -/
def refRow (ε : EReal) (X : Fin 8 → EReal) (w : Fin 65536 → EReal) (cw : Fin 65536 → Fin 8 → EReal)
    (cb : Fin 65536 → EReal) : EReal :=
  ∑ r, Ideal.div (w r) ((∑ r', w r') + ε) * ((∑ i, X i * cw r i) + cb r)

/-- The pairs (q, k) correspond one to one to the rule numbers: r ↦ (r / 256, r % 256) inverts the pairing. -/
def pairEquiv : Fin 256 × Fin 256 ≃ Fin 65536 where
  toFun p := pair p.1 p.2
  invFun r := (⟨r.val / 256, by omega⟩, ⟨r.val % 256, by omega⟩)
  left_inv := by
    rintro ⟨q, k⟩
    ext
    · simp only [pair]; omega
    · simp only [pair]; omega
  right_inv := by
    intro r
    ext
    simp only [pair]
    omega

/-- A sum over all rules is the double sum over the pairs, in any additive commutative monoid. -/
theorem sum_pair {M : Type*} [AddCommMonoid M] (f : Fin 65536 → M) :
    ∑ r, f r = ∑ q, ∑ k, f (pair q k) := by
  rw [← Equiv.sum_comp pairEquiv f, Fintype.sum_prod_type]
  rfl

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real inner term of the first-group index q, written rule by rule. -/
def innerR (X : Fin 8 → ℝ) (P2 : Fin 256 → ℝ) (cw : Fin 65536 → Fin 8 → ℝ) (cb : Fin 65536 → ℝ)
    (q : Fin 256) : ℝ :=
  ∑ k, P2 k * ((∑ i, X i * cw (pair q k) i) + cb (pair q k))

/-- With real entries the inner term is the coercion of the real inner term. -/
theorem inner_coe (X : Fin 8 → ℝ) (P2 : Fin 256 → ℝ) (cw : Fin 65536 → Fin 8 → ℝ) (cb : Fin 65536 → ℝ)
    (q : Fin 256) :
    inner (fun i => (X i : EReal)) (fun k => (P2 k : EReal)) (fun r i => (cw r i : EReal))
        (fun r => (cb r : EReal)) q = ((innerR X P2 cw cb q : ℝ) : EReal) := by
  simp only [inner, slabDot, ← EReal.coe_mul, ← coe_sum, ← EReal.coe_add]
  congr 1
  simp only [innerR, Fin.sum_univ_eight, Finset.mul_sum, ← Finset.sum_add_distrib]
  apply Finset.sum_congr rfl
  intro k _
  ring

/-- With real entries, nonnegative strengths that factor over the pairs, and ε > 0, the two forms agree. -/
theorem kerRow_eq_refRow (ε : ℝ) (hε : 0 < ε) (X : Fin 8 → ℝ) (P1 P2 : Fin 256 → ℝ)
    (h1 : ∀ q, 0 ≤ P1 q) (h2 : ∀ k, 0 ≤ P2 k) (cw : Fin 65536 → Fin 8 → ℝ) (cb : Fin 65536 → ℝ)
    (w : Fin 65536 → EReal) (hw : ∀ q k, w (pair q k) = (P1 q : EReal) * (P2 k : EReal)) :
    kerRow (ε : EReal) (fun i => (X i : EReal)) (fun q => (P1 q : EReal)) (fun k => (P2 k : EReal))
        (fun r i => (cw r i : EReal)) (fun r => (cb r : EReal))
      = refRow (ε : EReal) (fun i => (X i : EReal)) w (fun r i => (cw r i : EReal)) (fun r => (cb r : EReal)) := by
  -- the real denominator and its positivity
  have hs1 : 0 ≤ ∑ q, P1 q := Finset.sum_nonneg (fun q _ => h1 q)
  have hs2 : 0 ≤ ∑ k, P2 k := Finset.sum_nonneg (fun k _ => h2 k)
  have hDpos : 0 < (∑ q, P1 q) * (∑ k, P2 k) + ε := add_pos_of_nonneg_of_pos (mul_nonneg hs1 hs2) hε
  have hDne : (∑ q, P1 q) * (∑ k, P2 k) + ε ≠ 0 := ne_of_gt hDpos
  -- the factored denominator is the coercion of the real denominator
  have hden1 : (∑ q, (P1 q : EReal)) * (∑ k, (P2 k : EReal)) + (ε : EReal)
      = (((∑ q, P1 q) * (∑ k, P2 k) + ε : ℝ) : EReal) := by
    simp only [← coe_sum, ← EReal.coe_mul, ← EReal.coe_add]
  -- the sum of the strengths is the product of the two group sums
  have hS : (∑ r', w r') = (((∑ q, P1 q) * (∑ k, P2 k) : ℝ) : EReal) := by
    rw [sum_pair]
    simp only [hw, ← EReal.coe_mul, ← coe_sum]
    rw [Finset.sum_mul_sum]
  have hden2 : (∑ r', w r') + (ε : EReal) = (((∑ q, P1 q) * (∑ k, P2 k) + ε : ℝ) : EReal) := by
    rw [hS, ← EReal.coe_add]
  -- the factored form as a real number
  have hker : kerRow (ε : EReal) (fun i => (X i : EReal)) (fun q => (P1 q : EReal)) (fun k => (P2 k : EReal))
        (fun r i => (cw r i : EReal)) (fun r => (cb r : EReal))
      = (((∑ q, P1 q * innerR X P2 cw cb q) * (1 / ((∑ q, P1 q) * (∑ k, P2 k) + ε)) : ℝ) : EReal) := by
    simp only [kerRow, inner_coe]
    rw [hden1, Ideal.div_coe hDne]
    simp only [← EReal.coe_mul, ← coe_sum]
  -- the rule-by-rule form as a real number
  have href : refRow (ε : EReal) (fun i => (X i : EReal)) w (fun r i => (cw r i : EReal)) (fun r => (cb r : EReal))
      = ((∑ q, ∑ k, P1 q * P2 k * (1 / ((∑ q, P1 q) * (∑ k, P2 k) + ε))
          * ((∑ i, X i * cw (pair q k) i) + cb (pair q k)) : ℝ) : EReal) := by
    simp only [refRow]
    rw [hden2, sum_pair]
    simp only [hw, Ideal.div_coe hDne, ← EReal.coe_mul, ← coe_sum, ← EReal.coe_add]
  rw [hker, href, EReal.coe_eq_coe_iff]
  rw [Finset.sum_mul]
  apply Finset.sum_congr rfl
  intro q _
  rw [innerR, Finset.mul_sum, Finset.sum_mul]
  apply Finset.sum_congr rfl
  intro k _
  ring

end Cert.RuleSums

end
-- ==== Proof.RowForms.lean ====
/-
  One row of the fused kernel body as a function of the row's data, and its rule-sum form.

  The body multiplies the row of second-group strengths P2 with the packed coefficient matrix W of shape [256, 2304]:
  column i·256 + q of W (i < 8) holds the weight of input i for the rules with first-group index q, column 2048 + q their
  bias.  The inner term of q is the bias column's product plus, for each input i in turn, X i times the product with
  column i·256 + q; the row's output is the P1-weighted sum of the inner terms over the product of the two strength sums
  plus ε.  When W's entry (k, i·256 + q) is the weight cw of rule 256·q + k and its entry (k, 2048 + q) that rule's
  bias cb, this is the factored rule-sum form.
-/
import proofs.«115596_j19104014532939_2_alg».proof.Proof.RuleSums

noncomputable section

namespace Cert.RowForms

open Idealize.ShloMosaic Cert.RuleSums

/-- Column i·256 + q of the packed matrix (i = 8: the bias slab). -/
def col (i : ℕ) (hi : i < 9) (q : Fin 256) : Fin 2304 := ⟨i * 256 + q.val, by omega⟩

/-- The product of the row of second-group strengths with one column of the packed matrix. -/
def colDot (P2 : Fin 256 → EReal) (W : Fin 256 → Fin 2304 → EReal) (j : Fin 2304) : EReal := ∑ k, P2 k * W k j

/-- The inner term of the first-group index q, added left to right as the body does. -/
def innerW (X : Fin 8 → EReal) (P2 : Fin 256 → EReal) (W : Fin 256 → Fin 2304 → EReal) (q : Fin 256) : EReal :=
  ((((((((colDot P2 W (col 8 (by omega) q)
    + X 0 * colDot P2 W (col 0 (by omega) q))
    + X 1 * colDot P2 W (col 1 (by omega) q))
    + X 2 * colDot P2 W (col 2 (by omega) q))
    + X 3 * colDot P2 W (col 3 (by omega) q))
    + X 4 * colDot P2 W (col 4 (by omega) q))
    + X 5 * colDot P2 W (col 5 (by omega) q))
    + X 6 * colDot P2 W (col 6 (by omega) q))
    + X 7 * colDot P2 W (col 7 (by omega) q))

/-- One row of the body's output. -/
def bodyRow (ε : EReal) (X : Fin 8 → EReal) (P1 P2 : Fin 256 → EReal) (W : Fin 256 → Fin 2304 → EReal) : EReal :=
  Ideal.div (∑ q, P1 q * innerW X P2 W q) ((∑ q, P1 q) * (∑ k, P2 k) + ε)

/-- With the packed matrix holding the rules' weights and biases, the body's row is the factored rule-sum form. -/
theorem bodyRow_eq_kerRow (ε : EReal) (X : Fin 8 → EReal) (P1 P2 : Fin 256 → EReal) (W : Fin 256 → Fin 2304 → EReal)
    (cw : Fin 65536 → Fin 8 → EReal) (cb : Fin 65536 → EReal)
    (hcw : ∀ (q k : Fin 256) (i : Fin 8), W k (col i.val (by omega) q) = cw (pair q k) i)
    (hcb : ∀ q k : Fin 256, W k (col 8 (by omega) q) = cb (pair q k)) :
    bodyRow ε X P1 P2 W = kerRow ε X P1 P2 cw cb := by
  -- the bias column's product is the bias slab
  have hb : ∀ q, colDot P2 W (col 8 (by omega) q) = slabDot P2 (fun k => cb (pair q k)) := by
    intro q
    simp only [colDot, slabDot, hcb]
  -- the product with column i·256 + q is the weight slab of input i
  have hwt : ∀ (i : Fin 8) (q : Fin 256),
      colDot P2 W (col i.val (by omega) q) = slabDot P2 (fun k => cw (pair q k) i) := by
    intro i q
    simp only [colDot, slabDot, hcw]
  -- hence the two inner terms agree for every first-group index
  have hin : ∀ q, innerW X P2 W q = inner X P2 cw cb q := by
    intro q
    unfold innerW Cert.RuleSums.inner
    rw [hb q,
      show colDot P2 W (col 0 (by omega) q) = slabDot P2 (fun k => cw (pair q k) 0) from hwt 0 q,
      show colDot P2 W (col 1 (by omega) q) = slabDot P2 (fun k => cw (pair q k) 1) from hwt 1 q,
      show colDot P2 W (col 2 (by omega) q) = slabDot P2 (fun k => cw (pair q k) 2) from hwt 2 q,
      show colDot P2 W (col 3 (by omega) q) = slabDot P2 (fun k => cw (pair q k) 3) from hwt 3 q,
      show colDot P2 W (col 4 (by omega) q) = slabDot P2 (fun k => cw (pair q k) 4) from hwt 4 q,
      show colDot P2 W (col 5 (by omega) q) = slabDot P2 (fun k => cw (pair q k) 5) from hwt 5 q,
      show colDot P2 W (col 6 (by omega) q) = slabDot P2 (fun k => cw (pair q k) 6) from hwt 6 q,
      show colDot P2 W (col 7 (by omega) q) = slabDot P2 (fun k => cw (pair q k) 7) from hwt 7 q]
  simp only [bodyRow, kerRow, hin]

end Cert.RowForms

end
-- ==== Proof.KernelBody.lean ====
/-
  The kernel body's output block, row by row.

  The block the body leaves holds, at row p, the quotient of the P1-weighted sum of the inner terms by the product of
  the two strength sums plus ε, where the inner terms come from ONE matrix product of the row of second-group strengths
  with the packed coefficient matrix, cut into nine slabs of 256 columns; a narrowing of the float format is the
  identity on extended reals and the product accumulates into zero.
-/
import proofs.«115596_j19104014532939_2_alg».proof.Proof.Gen.KernelIdeal.Value
import proofs.«115596_j19104014532939_2_alg».proof.Proof.RowForms
import Idealize.ShloMosaic.Lib.ValueIdx
import Idealize.ShloMosaic.Lib.Pipeline.Value
import Idealize.ShloMosaic.PureOps.Ideal.Laws

noncomputable section

namespace Cert.KernelBody

open Idealize.ShloMosaic Idealize.ShloMosaic.ValueIdx Cert.KernelIdeal Cert.KernelIdeal.Gen Cert.RowForms

variable [Cert.KernelIdeal.Facts]

/-- The sum of a [512, 256] block along its second axis, read at row p, is the sum of row p. -/
theorem rowSum_apply (v : FVec Ideal S512x256 .f32) (p : Fin 512) :
    multiReduction (F := Ideal) .add [1] S512 v 0x00000000#32 reduces_S512x256_S512 (.inl rfl) rfl (ix1 p)
      = ∑ k : Fin 256, v (ix2 p k) := by
  refine (Ideal.multiReduction_add_single _ _ _ _ _ _).trans ?_
  show ∑ k : Fin 256, v (reduces_S512x256_S512.lift (ix1 p) k) = _
  refine Finset.sum_congr rfl fun k _ => ?_
  have hl : reduces_S512x256_S512.lift (ix1 p) k = ix2 p k :=
    funext fun c => Fin.ext (by match c with | ⟨0, _⟩ => rfl | ⟨1, _⟩ => rfl)
  rw [hl]

/-- A slab of 256 columns starting at column o lies inside the 2304 columns. -/
theorem slab_lt {o : ℕ} (h : S512x2304.Slices ![0, o] S512x256) (q : Fin 256) : o + q.val < 2304 := by
  have h0 := h.2 (1 : Fin 2)
  have h1 : o + 256 ≤ 2304 := h0
  omega

/-- A slab of 256 columns of a [512, 2304] block, starting at column o, read at (p, q), is the block at (p, o + q). -/
theorem slab_apply {α : Type} (o : ℕ) (v : S512x2304.Idx → α) (h : S512x2304.Slices ![0, o] S512x256)
    (p : Fin 512) (q : Fin 256) :
    extractStridedSlice S512x256 ![0, o] v h (ix2 p q) = v (ix2 p ⟨o + q.val, slab_lt h q⟩) :=
  extractStridedSlice_apply _ v h (ix2 p q) (ix2 p ⟨o + q.val, slab_lt h q⟩) (fun a => match a with
    | ⟨0, _⟩ => by show p.val = 0 + p.val; omega
    | ⟨1, _⟩ => by show o + q.val = o + q.val; rfl)

/-- A column i cut out of 8 columns is one of them. -/
theorem column_lt {i : ℕ} (h : S512x8.Slices ![0, i] S512x1) : i < 8 := by
  have h0 := h.2 (1 : Fin 2)
  have h1 : i + 1 ≤ 8 := h0
  omega

/-- Column i of a [512, 8] block as a [512, 1] block, read at (p, u), is the block at (p, i). -/
theorem column_apply {α : Type} (i : ℕ) (v : S512x8.Idx → α) (h : S512x8.Slices ![0, i] S512x1)
    (p : Fin 512) (u : Fin 1) :
    extractStridedSlice S512x1 ![0, i] v h (ix2 p u) = v (ix2 p ⟨i, column_lt h⟩) :=
  extractStridedSlice_apply _ v h (ix2 p u) (ix2 p ⟨i, column_lt h⟩) (fun a => match a with
    | ⟨0, _⟩ => by show p.val = 0 + p.val; omega
    | ⟨1, _⟩ => by show i = i + u.val; omega)

/-- A [512, 1] block spread over 256 lanes, read at (p, q), is the block at (p, 0). -/
theorem spread_apply {α : Type} (v : S512x1.Idx → α) (h : S512x1.Broadcasts S512x256) (p : Fin 512) (q : Fin 256) :
    broadcastTo S512x256 v h (ix2 p q) = v (ix2 p (0 : Fin 1)) :=
  broadcastTo_apply v h (ix2 p q) (ix2 p (0 : Fin 1)) (fun a => match a with
    | ⟨0, _⟩ => by show p.val = if (512 : Nat) = 1 then 0 else p.val; rw [if_neg (by decide)]
    | ⟨1, _⟩ => by show 0 = if (1 : Nat) = 1 then 0 else q.val; rw [if_pos rfl])

/-- The left operand's index of the matrix product at output index i keeps i's row … -/
theorem product_lhs_0 (i : S512x2304.Idx) (q : dot_S512x256_S256x2304_S512x2304_1_0_0_1_n_n.contr.Idx) :
    (dot_S512x256_S256x2304_S512x2304_1_0_0_1_n_n.lhsIdx i q 0).val = (i 0).val := by
  unfold DotDims.lhsIdx
  rw [dif_neg (show ¬(0 : Fin S512x256.rank) ∈ dot_S512x256_S256x2304_S512x2304_1_0_0_1_n_n.lhsBatch by decide),
    dif_pos (show (0 : Fin S512x256.rank) ∈ dot_S512x256_S256x2304_S512x2304_1_0_0_1_n_n.lhsNonContracting by decide)]
  rfl
/-- … and has the contraction position as its column; -/
theorem product_lhs_1 (i : S512x2304.Idx) (q : dot_S512x256_S256x2304_S512x2304_1_0_0_1_n_n.contr.Idx) :
    (dot_S512x256_S256x2304_S512x2304_1_0_0_1_n_n.lhsIdx i q 1).val = (q ⟨0, by decide⟩).val :=
  dot_S512x256_S256x2304_S512x2304_1_0_0_1_n_n.lhsIdx_val_of_single rfl i q
/-- the right operand's index has the contraction position as its row … -/
theorem product_rhs_0 (i : S512x2304.Idx) (q : dot_S512x256_S256x2304_S512x2304_1_0_0_1_n_n.contr.Idx) :
    (dot_S512x256_S256x2304_S512x2304_1_0_0_1_n_n.rhsIdx i q 0).val = (q ⟨0, by decide⟩).val :=
  dot_S512x256_S256x2304_S512x2304_1_0_0_1_n_n.rhsIdx_val_of_single rfl i q
/-- … and keeps i's column. -/
theorem product_rhs_1 (i : S512x2304.Idx) (q : dot_S512x256_S256x2304_S512x2304_1_0_0_1_n_n.contr.Idx) :
    (dot_S512x256_S256x2304_S512x2304_1_0_0_1_n_n.rhsIdx i q 1).val = (i 1).val := by
  unfold DotDims.rhsIdx
  rw [dif_neg (show ¬(1 : Fin S256x2304.rank) ∈ dot_S512x256_S256x2304_S512x2304_1_0_0_1_n_n.rhsBatch by decide),
    dif_pos (show (1 : Fin S256x2304.rank) ∈ dot_S512x256_S256x2304_S512x2304_1_0_0_1_n_n.rhsNonContracting by decide)]
  rfl

/-- The matrix product of a [512, 256] block with a [256, 2304] matrix, accumulated into zero, read at (p, j), is
    the sum over k of the block at (p, k) times the matrix at (k, j). -/
theorem product_apply (a : FVec Ideal S512x256 .bf16) (w : FVec Ideal S256x2304 .bf16) (p : Fin 512) (j : Fin 2304) :
    matmul dot_S512x256_S256x2304_S512x2304_1_0_0_1_n_n none a w (constant (F := Ideal) S512x2304 .f32 0x00000000#32) (ix2 p j)
      = ∑ k : Fin 256, a (ix2 p k) * w (ix2 k j) := by
  simp only [matmul]
  rw [Ideal.matmul_constant_zero_apply,
    ← Equiv.sum_comp (contrEquiv1 dot_S512x256_S256x2304_S512x2304_1_0_0_1_n_n 256 rfl rfl).symm]
  refine Finset.sum_congr rfl fun k _ => ?_
  have hk := contrEquiv1_symm_val dot_S512x256_S256x2304_S512x2304_1_0_0_1_n_n 256 rfl rfl k
  have el : dot_S512x256_S256x2304_S512x2304_1_0_0_1_n_n.lhsIdx (ix2 p j)
      ((contrEquiv1 dot_S512x256_S256x2304_S512x2304_1_0_0_1_n_n 256 rfl rfl).symm k) = ix2 p k :=
    funext fun c => Fin.ext (by
      match c with
      | ⟨0, _⟩ => exact product_lhs_0 _ _
      | ⟨1, _⟩ => exact (product_lhs_1 _ _).trans hk)
  have er : dot_S512x256_S256x2304_S512x2304_1_0_0_1_n_n.rhsIdx (ix2 p j)
      ((contrEquiv1 dot_S512x256_S256x2304_S512x2304_1_0_0_1_n_n 256 rfl rfl).symm k) = ix2 k j :=
    funext fun c => Fin.ext (by
      match c with
      | ⟨0, _⟩ => exact (product_rhs_0 _ _).trans hk
      | ⟨1, _⟩ => exact product_rhs_1 _ _)
  rw [el, er]

/-- The inner terms the body computes: at (p, q), the inner term of q for row p's data and the packed matrix. -/
theorem pay4_apply (P1 : Vec Ideal S512x8 .f32) (P2 : Vec Ideal S512x256 .f32) (P3 : Vec Ideal S256x2304 .bf16)
    (p : Fin 512) (q : Fin 256) :
    k0_pay4 (F := Ideal) P1 P2 P3 (ix2 p q)
      = innerW (fun i => P1 (ix2 p i)) (fun k => P2 (ix2 p k)) (fun k j => P3 (ix2 k j)) q := by
  unfold k0_pay4 k0_pay3
  simp only [shapeCast_self, addf_apply, mulf_apply, spread_apply, column_apply, slab_apply, product_apply,
    truncf_apply]
  rfl

/-- Row p of the block the body leaves, as the row function of row p of the three row-blocked operands and of the
    whole packed matrix. -/
theorem E4_apply (P0 : Vec Ideal S512x256 .f32) (P1 : Vec Ideal S512x8 .f32) (P2 : Vec Ideal S512x256 .f32)
    (P3 : Vec Ideal S256x2304 .bf16) (p : Fin 512) (u : Fin 1) :
    Cert.KernelIdeal.Value.E4 (F := Ideal) P0 P1 P2 P3 (ix2 p u)
      = bodyRow (Ideal.ofBits .f32 0x358637BD#32) (fun i => P1 (ix2 p i)) (fun q => P0 (ix2 p q)) (fun k => P2 (ix2 p k))
          (fun k j => P3 (ix2 k j)) := by
  -- the three lane sums are read at row p
  have hi0 : Cert.KernelIdeal.Value.ix4_0 (ix2 p u) = ix1 p := funext fun a => match a with | ⟨0, _⟩ => rfl
  have hi1 : Cert.KernelIdeal.Value.ix4_1 (ix2 p u) = ix1 p := funext fun a => match a with | ⟨0, _⟩ => rfl
  have hi2 : Cert.KernelIdeal.Value.ix4_2 (ix2 p u) = ix1 p := funext fun a => match a with | ⟨0, _⟩ => rfl
  have r0 : ∀ v : FVec Ideal S512x256 .f32,
      multiReduction (F := Ideal) .add [1] S512 v 0x00000000#32 reduces_S512x256_S512 (.inl rfl) rfl
        (Cert.KernelIdeal.Value.ix4_0 (ix2 p u)) = ∑ k : Fin 256, v (ix2 p k) :=
    fun v => (congrArg _ hi0).trans (rowSum_apply v p)
  have r1 : ∀ v : FVec Ideal S512x256 .f32,
      multiReduction (F := Ideal) .add [1] S512 v 0x00000000#32 reduces_S512x256_S512 (.inl rfl) rfl
        (Cert.KernelIdeal.Value.ix4_1 (ix2 p u)) = ∑ k : Fin 256, v (ix2 p k) :=
    fun v => (congrArg _ hi1).trans (rowSum_apply v p)
  have r2 : ∀ v : FVec Ideal S512x256 .f32,
      multiReduction (F := Ideal) .add [1] S512 v 0x00000000#32 reduces_S512x256_S512 (.inl rfl) rfl
        (Cert.KernelIdeal.Value.ix4_2 (ix2 p u)) = ∑ k : Fin 256, v (ix2 p k) :=
    fun v => (congrArg _ hi2).trans (rowSum_apply v p)
  show Ideal.div
      (multiReduction (F := Ideal) .add [1] S512
        (mulf (shapeCast S512x256 P0 shapeCasts_S512x256_S512x256) (k0_pay4 P1 P2 P3)) 0x00000000#32
        reduces_S512x256_S512 (.inl rfl) rfl (Cert.KernelIdeal.Value.ix4_0 (ix2 p u)))
      (multiReduction (F := Ideal) .add [1] S512 (shapeCast S512x256 P0 shapeCasts_S512x256_S512x256) 0x00000000#32
          reduces_S512x256_S512 (.inl rfl) rfl (Cert.KernelIdeal.Value.ix4_1 (ix2 p u))
        * multiReduction (F := Ideal) .add [1] S512 (shapeCast S512x256 P2 shapeCasts_S512x256_S512x256) 0x00000000#32
          reduces_S512x256_S512 (.inl rfl) rfl (Cert.KernelIdeal.Value.ix4_2 (ix2 p u))
        + Ideal.ofBits .f32 0x358637BD#32) = _
  rw [r0, r1, r2]
  simp only [shapeCast_self, mulf_apply, pay4_apply]
  rfl

end Cert.KernelBody

end
-- ==== Proof.KernelValue.lean ====
/-
  The kernel's result array as one function of the arrays the region finds.

  The grid has two points; point t works on rows 512·t … 512·t + 511: it fetches those rows of the inputs x and of the
  two strength matrices, the whole packed coefficient matrix, and writes back rows 512·t … 512·t + 511 of the result.
  Row p of the block it writes is the body's row function of row p of each fetched block, that is of row 512·t + p of
  the arrays, so the result array is, row by row, the body's row function of the same row of the arrays; the two blocks
  cover the 1024 rows.
-/
import proofs.«115596_j19104014532939_2_alg».proof.Proof.Gen.KernelIdeal.Value
import proofs.«115596_j19104014532939_2_alg».proof.Proof.KernelBody
import Idealize.ShloMosaic.Lib.Pipeline.Value
import Idealize.ShloMosaic.Lib.ValueIdx
import Mathlib.Tactic

noncomputable section

open Idealize.ShloMosaic Idealize.ShloMosaic.TcCoe Idealize.SL.Sem Idealize.ShloMosaic.ValueIdx
open Idealize.ShloMosaic.Pipeline (Dat)

namespace Cert.KernelValue

open Cert.KernelIdeal Cert.KernelIdeal.Gen Cert.KernelIdeal.Value Cert.RowForms

variable (m : (ℓ : Loc nD τ sig) → Buf (Elt Ideal) ℓ) (ρ : Dev nD → PrngReg)

theorem hz : (![0, 0] : Fin 2 → Nat) = fun _ => 0 := funext fun a => by fin_cases a <;> rfl

/-- The row of an index of the [1024, 1] result. -/
def rowOf (i : S1024x1.Idx) : Fin 1024 := ⟨(i 0).val, (i 0).isLt⟩

/-- The result array: at each row, the body's row function of that row of x and of the two strength matrices, and of
    the packed matrix. -/
def G (c : Dev nD) : S1024x1.Idx → EReal := fun i =>
  bodyRow (Ideal.ofBits .f32 0x358637BD#32)
    (fun j => (V m c main_arg0 : S1024x8.Idx → EReal) (ix2 (rowOf i) j))
    (fun q => (V m c main_v45 : S1024x256.Idx → EReal) (ix2 (rowOf i) q))
    (fun k => (V m c main_v72 : S1024x256.Idx → EReal) (ix2 (rowOf i) k))
    (fun k j => (V m c main_v79 : S256x2304.Idx → EReal) (ix2 k j))

/-- Row j of the block the body leaves is the body's row function of row j of the four operand blocks. -/
theorem out_row (x0 : Vec Ideal S512x8 .f32) (x1 x2 : Vec Ideal S512x256 .f32) (x3 : Vec Ideal S256x2304 .bf16)
    (p : Fin 512) (u : Fin 1) :
    out0_4 x0 x1 x2 x3 (ix2 p u)
      = bodyRow (Ideal.ofBits .f32 0x358637BD#32) (fun i => x0 (ix2 p i)) (fun q => x1 (ix2 p q)) (fun k => x2 (ix2 p k))
          (fun k l => x3 (ix2 k l)) := by
  unfold out0_4
  simp only [View.ld_unit_zero (S := S512x8) hz, View.ld_unit_zero (S := S512x256) hz, View.ld_unit_zero (S := S256x2304) hz]
  rw [Value.canon4_eq]
  exact Cert.KernelBody.E4_apply x1 x0 x2 x3 p u

/-- The printed index maps over the two grid points: the three row-blocked inputs move with the output, along rows
    only; the packed matrix stays. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 1 :=
  (by decide +kernel : ∀ t : Fin grid0.N, _)

/-- Each row block is some point's. -/
theorem idx_onto : ∀ q0 : Fin 2, ∃ t : Fin cfg0.N, win0_4.index t = ![q0.val, 0] :=
  (by decide +kernel : ∀ q0 : Fin 2, ∃ t : Fin grid0.N, win0_4.index t = ![q0.val, 0])

/-- Row x of point t's block of x is row 512·t + x of the array. -/
theorem iblk0_apply (c : Dev nD) (t : Fin cfg0.N) (x : S512x8.Idx) (k : S1024x8.Idx)
    (hk0 : (k 0).val = win0_4.index t (0 : Fin 2) * 512 + (x 0).val) (hk1 : (k 1).val = (x 1).val) :
    (iblk m c 0 t : Vec Ideal S512x8 .f32) x = (V m c main_arg0 : S1024x8.Idx → EReal) k := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 512 + 1 * (x 0).val = (k 0).val; rw [e0, hk0]; omega
  | ⟨1, _⟩ => show win0_0.index t (1 : Fin 2) * 8 + 1 * (x 1).val = (k 1).val; rw [e1, hk1]; omega

/-- The same for the first group's strengths … -/
theorem iblk1_apply (c : Dev nD) (t : Fin cfg0.N) (x : S512x256.Idx) (k : S1024x256.Idx)
    (hk0 : (k 0).val = win0_4.index t (0 : Fin 2) * 512 + (x 0).val) (hk1 : (k 1).val = (x 1).val) :
    (iblk m c 1 t : Vec Ideal S512x256 .f32) x = (V m c main_v45 : S1024x256.Idx → EReal) k := by
  obtain ⟨-, -, e0, e1, -⟩ := idx_facts t
  unfold iblk
  rw [View.read_apply]
  show V m c main_v45 _ = V m c main_v45 _
  congr 1
  funext a
  apply Fin.ext
  match a with
  | ⟨0, _⟩ => show win0_1.index t (0 : Fin 2) * 512 + 1 * (x 0).val = (k 0).val; rw [e0, hk0]; omega
  | ⟨1, _⟩ => show win0_1.index t (1 : Fin 2) * 256 + 1 * (x 1).val = (k 1).val; rw [e1, hk1]; omega

/-- … and the second group's. -/
theorem iblk2_apply (c : Dev nD) (t : Fin cfg0.N) (x : S512x256.Idx) (k : S1024x256.Idx)
    (hk0 : (k 0).val = win0_4.index t (0 : Fin 2) * 512 + (x 0).val) (hk1 : (k 1).val = (x 1).val) :
    (iblk m c 2 t : Vec Ideal S512x256 .f32) x = (V m c main_v72 : S1024x256.Idx → EReal) k := by
  obtain ⟨-, -, -, -, e0, e1, -⟩ := idx_facts t
  unfold iblk
  rw [View.read_apply]
  show V m c main_v72 _ = V m c main_v72 _
  congr 1
  funext a
  apply Fin.ext
  match a with
  | ⟨0, _⟩ => show win0_2.index t (0 : Fin 2) * 512 + 1 * (x 0).val = (k 0).val; rw [e0, hk0]; omega
  | ⟨1, _⟩ => show win0_2.index t (1 : Fin 2) * 256 + 1 * (x 1).val = (k 1).val; rw [e1, hk1]; omega

/-- Every point's block of the packed matrix is the whole matrix. -/
theorem iblk3_apply (c : Dev nD) (t : Fin cfg0.N) (x : S256x2304.Idx) :
    (iblk m c 3 t : Vec Ideal S256x2304 .bf16) x = (V m c main_v79 : S256x2304.Idx → EReal) x := by
  obtain ⟨-, -, -, -, -, -, e0, e1, -⟩ := idx_facts t
  unfold iblk
  rw [View.read_apply]
  show V m c main_v79 _ = V m c main_v79 _
  congr 1
  funext a
  apply Fin.ext
  match a with
  | ⟨0, _⟩ => show win0_3.index t (0 : Fin 2) * 256 + 1 * (x 0).val = (x 0).val; rw [e0]; omega
  | ⟨1, _⟩ => show win0_3.index t (1 : Fin 2) * 2304 + 1 * (x 1).val = (x 1).val; rw [e1]; omega

set_option maxHeartbeats 4000000 in
/-- What point t writes back is block t of the result function. -/
theorem flushed_eq (c : Dev nD) (t : Fin cfg0.N) :
    (dats m 0 c).flushed 4 t = ((cfg0.win 4).blk t).view.read (Elt Ideal) (G m c) := by
  rw [Value.flushed4]
  funext j
  show out0_4 (iblk m c 0 t) (iblk m c 1 t) (iblk m c 2 t) (iblk m c 3 t) j = G m c (((cfg0.win 4).blk t).view.emb j)
  obtain ⟨p, u, rfl⟩ : ∃ (p : Fin 512) (u : Fin 1), j = ix2 p u := ⟨j 0, j 1, eq_ix2 j⟩
  refine (out_row (iblk m c 0 t) (iblk m c 1 t) (iblk m c 2 t) (iblk m c 3 t) p u).trans ?_
  have hrow : (rowOf (((cfg0.win 4).blk t).view.emb (ix2 p u))).val = win0_4.index t (0 : Fin 2) * 512 + p.val := by
    show win0_4.index t (0 : Fin 2) * 512 + 1 * p.val = _
    omega
  have a0 : (fun i : Fin 8 => (iblk m c 0 t : Vec Ideal S512x8 .f32) (ix2 p i))
      = fun i => (V m c main_arg0 : S1024x8.Idx → EReal) (ix2 (rowOf (((cfg0.win 4).blk t).view.emb (ix2 p u))) i) :=
    funext fun i => iblk0_apply m c t (ix2 p i) _ hrow rfl
  have a1 : (fun q : Fin 256 => (iblk m c 1 t : Vec Ideal S512x256 .f32) (ix2 p q))
      = fun q => (V m c main_v45 : S1024x256.Idx → EReal) (ix2 (rowOf (((cfg0.win 4).blk t).view.emb (ix2 p u))) q) :=
    funext fun q => iblk1_apply m c t (ix2 p q) _ hrow rfl
  have a2 : (fun k : Fin 256 => (iblk m c 2 t : Vec Ideal S512x256 .f32) (ix2 p k))
      = fun k => (V m c main_v72 : S1024x256.Idx → EReal) (ix2 (rowOf (((cfg0.win 4).blk t).view.emb (ix2 p u))) k) :=
    funext fun k => iblk2_apply m c t (ix2 p k) _ hrow rfl
  have a3 : (fun (k : Fin 256) (l : Fin 2304) => (iblk m c 3 t : Vec Ideal S256x2304 .bf16) (ix2 k l))
      = fun k l => (V m c main_v79 : S256x2304.Idx → EReal) (ix2 k l) :=
    funext fun k => funext fun l => iblk3_apply m c t (ix2 k l)
  unfold G
  exact congr (congr (congr (congrArg (bodyRow _) a0) a1) a2) a3

/-- An index of the result is in point t's block iff its row is among the block's 512 rows. -/
theorem mem_blk (t : Fin cfg0.N) (i : S1024x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v80).slice (win0_4.rect t)).set ↔ _
  rw [View.set_slice_whole, Rect.mem_set_unit]
  exact Iff.rfl

/-- The two blocks cover the result: row r is in the block of point r / 512. -/
theorem cover (i : S1024x1.Idx) : ∃ t : Fin cfg0.N, (cfg0.win 4).flush t = true ∧ i ∈ ((cfg0.win 4).blk t).view.set := by
  have hi0 : (i 0).val < 1024 := (i 0).isLt
  have hi1 : (i 1).val < 1 := (i 1).isLt
  obtain ⟨t, ht⟩ := idx_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1 ≤ (i 1).val ∧ (i 1).val < win0_4.index t (1 : Fin 2) * 1 + 1; omega

/-- So the result array ends holding the result function. -/
theorem final (c : Dev nD) : (dats m 0 c).arrAt 4 cfg0.N = G m c :=
  (dats m 0 c).arrAt_eq_of_cover 4 (G m c) (fun t _ => flushed_eq m c t) (cover)

/-- The kernel's run, read: the result array at the result function, the arguments unchanged. -/
theorem run : θ_run defs (onTc (τ := τ) (main (F := Ideal))) ⟨m, fun _ => 0, ρ⟩ fun r => ∀ c : Dev nD,
      r.2.mem ((c : Thread nD τ).loc main_v80) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelValue

end
-- ==== Proof.LibInDimLayout.lean ====
/-
  Broadcasts along unit and new axes, read at an index given by coordinates.

  A broadcast never moves a coordinate: the result at an index reads the operand at the same coordinates on the
  axes the operand really has, and at 0 on an operand axis of extent one.  So
    a one-element vector [1] spread over [a] reads its one element everywhere,
    a vector [a] given a trailing unit axis, [a, 1], reads entry i at (i, 0),
    a column [a, 1] spread over [a, b] reads row i at (i, j),
    a matrix [a, b] given a trailing unit axis, [a, b, 1], reads entry (i, j) at (i, j, 0),
    a stack of columns [a, b, 1] spread over [a, b, c] reads (i, j, 0) at (i, j, k),
  for the host's broadcast_in_dim with the identity placement of the operand's axes, and, for the vector
  broadcast, a one-by-one matrix [1, 1] spread down a column [a, 1] reads its one element everywhere.
-/
import Idealize.ShloMosaic.Lib.Pipeline.Value
import Idealize.ShloMosaic.Lib.ValueIdx

namespace Cert.LibInDimLayout

open Idealize.ShloMosaic Idealize.ShloMosaic.ValueIdx

variable {α : Type}

/-- [1] spread over [a] along axis 0: every entry is the operand's one element. -/
theorem inDim_1_a_apply {a : ℕ} (v : (⟨1, ![1]⟩ : Shape).Idx → α)
    (h : (⟨1, ![1]⟩ : Shape).BroadcastsInDim ⟨1, ![a]⟩ ![0]) (i : Fin a) :
    broadcastInDim ⟨1, ![a]⟩ ![0] h v (ix1 i) = v (ix1 (0 : Fin 1)) := by
  refine broadcastInDim_apply _ h v (ix1 i) (ix1 (0 : Fin 1)) fun ax => ?_
  match ax with
  | ⟨0, _⟩ =>
    show (0 : ℕ) = if (1 : ℕ) = 1 then 0 else _
    rw [if_pos rfl]

/-- [a] placed on axis 0 of [a, 1]: entry (i, u) is the operand at i. -/
theorem inDim_a_a1_apply {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A column [a, 1] spread over [a, b], axes kept in place: entry (i, j) is the column at (i, 0). -/
theorem inDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

/-- A matrix [a, b] placed on the first two axes of [a, b, 1]: entry (i, j, u) is the operand at (i, j). -/
theorem inDim_ab_ab1_apply {a b : ℕ} (v : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h v (ix3 i j u) = v (ix2 i j) := by
  refine broadcastInDim_apply _ h v (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b, 1] spread over [a, b, c], axes kept in place: entry (i, j, k) is the operand at (i, j, 0). -/
theorem inDim_ab1_abc_apply {a b c : ℕ} (v : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h v (ix3 i j k) = v (ix3 i j (0 : Fin 1)) := by
  refine broadcastInDim_apply _ h v (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else _
    rw [if_pos rfl]

/-- The vector broadcast of a one-by-one matrix down a column [a, 1]: every entry is the one element. -/
theorem broadcastTo_11_a1_apply {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ =>
    show (0 : ℕ) = if (1 : ℕ) = 1 then 0 else _
    rw [if_pos rfl]
  | ⟨1, _⟩ =>
    show (0 : ℕ) = if (1 : ℕ) = 1 then 0 else _
    rw [if_pos rfl]

end Cert.LibInDimLayout
-- ==== Proof.LibOuterProduct.lean ====
/-
  The outer product of the rows of two matrices, flattened, and the slices that feed it, read at an index.

  For a matrix w of shape [a, n] and a matrix s of shape [a, c] the row-wise outer product is the [a, n, c] array
  w(p, r) · s(p, l); flattened row-major to [a, n·c] it holds that product at column r·c + l.  As lowered, w is given a
  trailing unit axis and spread over c, s is given a middle unit axis and spread over n, the two are multiplied entry
  by entry and the result is reshaped.  The matrices s come from a rank-three array [a, m, c] by a unit-thick slice
  along the middle axis with the unit axis dropped, possibly after a thicker slice along the same axis.  Every one of
  these operations only re-indexes, so each is read at an index given by its coordinates.
-/
import Idealize.ShloMosaic.Lib.Pipeline.Value
import Idealize.ShloMosaic.Lib.ValueIdx
import Idealize.ShloMosaic.PureOps.Ideal
import proofs.«115596_j19104014532939_2_alg».proof.Proof.LibInDimLayout

noncomputable section

namespace Cert.LibOuterProduct

open Idealize.ShloMosaic Idealize.ShloMosaic.ValueIdx

variable {α : Type}

/-- An [a, b, c] array flattened row-major to [a, n] (n = b·c) reads, at (r, j) with j = k·c + l, the array at (r, k, l). -/
theorem flatten_apply {a b c n : ℕ} (x : (⟨3, ![a, b, c]⟩ : Shape).Idx → α)
    (h : (⟨3, ![a, b, c]⟩ : Shape).ShapeCasts ⟨2, ![a, n]⟩) (hn : n = b * c)
    (r : Fin a) (k : Fin b) (l : Fin c) (j : Fin n) (hj : j.val = k.val * c + l.val) :
    shapeCast ⟨2, ![a, n]⟩ x h (ix2 r j) = x (ix3 r k l) :=
  shapeCast_apply x h _ _ (by
    rw [Shape.rowMajor_val_three, Shape.rowMajor_val_two]
    show (r.val * b + k.val) * c + l.val = r.val * n + j.val
    rw [hj, hn]; ring)

/-- An [a, 1, c] array with its unit axis dropped reads, at (p, l), the array at (p, 0, l). -/
theorem squeeze_apply {a c : ℕ} (x : (⟨3, ![a, 1, c]⟩ : Shape).Idx → α)
    (h : (⟨3, ![a, 1, c]⟩ : Shape).ShapeCasts ⟨2, ![a, c]⟩) (p : Fin a) (l : Fin c) :
    shapeCast ⟨2, ![a, c]⟩ x h (ix2 p l) = x (ix3 p (0 : Fin 1) l) :=
  shapeCast_apply x h _ _ (by
    rw [Shape.rowMajor_val_three, Shape.rowMajor_val_two]
    show (p.val * 1 + 0) * c + l.val = p.val * c + l.val
    ring)

/-- A matrix [a, c] placed on axes 0 and 2 of [a, 1, c]: entry (p, u, l) is the matrix at (p, l). -/
theorem inDim_ac_a1c_apply {a c : ℕ} (v : (⟨2, ![a, c]⟩ : Shape).Idx → α)
    (h : (⟨2, ![a, c]⟩ : Shape).BroadcastsInDim ⟨3, ![a, 1, c]⟩ ![0, 2]) (p : Fin a) (u : Fin 1) (l : Fin c) :
    broadcastInDim ⟨3, ![a, 1, c]⟩ ![0, 2] h v (ix3 p u l) = v (ix2 p l) := by
  refine broadcastInDim_apply _ h v (ix3 p u l) (ix2 p l) fun ax => ?_
  match ax with
  | ⟨0, _⟩ =>
    show p.val = if a = 1 then 0 else p.val
    split
    · have := p.isLt; omega
    · rfl
  | ⟨1, _⟩ =>
    show l.val = if c = 1 then 0 else l.val
    split
    · have := l.isLt; omega
    · rfl

/-- A slab [a, 1, c] spread over [a, b, c], axes kept in place: entry (p, r, l) is the slab at (p, 0, l). -/
theorem inDim_a1c_abc_apply {a b c : ℕ} (v : (⟨3, ![a, 1, c]⟩ : Shape).Idx → α)
    (h : (⟨3, ![a, 1, c]⟩ : Shape).BroadcastsInDim ⟨3, ![a, b, c]⟩ ![0, 1, 2]) (p : Fin a) (r : Fin b) (l : Fin c) :
    broadcastInDim ⟨3, ![a, b, c]⟩ ![0, 1, 2] h v (ix3 p r l) = v (ix3 p (0 : Fin 1) l) := by
  refine broadcastInDim_apply _ h v (ix3 p r l) (ix3 p (0 : Fin 1) l) fun ax => ?_
  match ax with
  | ⟨0, _⟩ =>
    show p.val = if a = 1 then 0 else p.val
    split
    · have := p.isLt; omega
    · rfl
  | ⟨1, _⟩ =>
    show (0 : ℕ) = if (1 : ℕ) = 1 then 0 else _
    rw [if_pos rfl]
  | ⟨2, _⟩ =>
    show l.val = if c = 1 then 0 else l.val
    split
    · have := l.isLt; omega
    · rfl

/-- A slice of an [a, n, c] array along its middle axis, b thick from offset o: entry (p, k, l) is the array at
    (p, o + k, l). -/
theorem slice_band_apply {a n b c : ℕ} (o : ℕ) (x : (⟨3, ![a, n, c]⟩ : Shape).Idx → α)
    (h : (⟨3, ![a, n, c]⟩ : Shape).Slices ![0, o, 0] ⟨3, ![a, b, c]⟩) (p : Fin a) (k : Fin b) (l : Fin c)
    (k' : Fin n) (hk : k'.val = o + k.val) :
    extractStridedSlice ⟨3, ![a, b, c]⟩ ![0, o, 0] x h (ix3 p k l) = x (ix3 p k' l) := by
  refine extractStridedSlice_apply ![0, o, 0] x h (ix3 p k l) (ix3 p k' l) fun ax => ?_
  match ax with
  | ⟨0, _⟩ => show p.val = 0 + p.val; omega
  | ⟨1, _⟩ => show k'.val = o + k.val; exact hk
  | ⟨2, _⟩ => show l.val = 0 + l.val; omega

/-- Column o of the middle axis of an [a, n, c] array as an [a, c] matrix: the unit-thick slice with its unit axis
    dropped. -/
def pick {a n c : ℕ} (o : ℕ) (x : (⟨3, ![a, n, c]⟩ : Shape).Idx → α)
    (h1 : (⟨3, ![a, n, c]⟩ : Shape).Slices ![0, o, 0] ⟨3, ![a, 1, c]⟩)
    (h2 : (⟨3, ![a, 1, c]⟩ : Shape).ShapeCasts ⟨2, ![a, c]⟩) : (⟨2, ![a, c]⟩ : Shape).Idx → α :=
  shapeCast ⟨2, ![a, c]⟩ (extractStridedSlice ⟨3, ![a, 1, c]⟩ ![0, o, 0] x h1) h2

/-- It reads, at (p, l), the array at (p, o, l). -/
theorem pick_apply {a n c : ℕ} (o : ℕ) (x : (⟨3, ![a, n, c]⟩ : Shape).Idx → α)
    (h1 : (⟨3, ![a, n, c]⟩ : Shape).Slices ![0, o, 0] ⟨3, ![a, 1, c]⟩)
    (h2 : (⟨3, ![a, 1, c]⟩ : Shape).ShapeCasts ⟨2, ![a, c]⟩) (p : Fin a) (l : Fin c) (k : Fin n) (hk : k.val = o) :
    pick o x h1 h2 (ix2 p l) = x (ix3 p k l) :=
  (squeeze_apply _ h2 p l).trans (slice_band_apply o x h1 p (0 : Fin 1) l k (by simpa using hk))

/-- The flattened row-wise outer product of w : [a, n] and s : [a, c] on the extended reals, as lowered. -/
def outer {a n c N : ℕ} (w : FVec Ideal ⟨2, ![a, n]⟩ .f32) (s : FVec Ideal ⟨2, ![a, c]⟩ .f32)
    (hw1 : (⟨2, ![a, n]⟩ : Shape).BroadcastsInDim ⟨3, ![a, n, 1]⟩ ![0, 1])
    (hw2 : (⟨3, ![a, n, 1]⟩ : Shape).BroadcastsInDim ⟨3, ![a, n, c]⟩ ![0, 1, 2])
    (hs1 : (⟨2, ![a, c]⟩ : Shape).BroadcastsInDim ⟨3, ![a, 1, c]⟩ ![0, 2])
    (hs2 : (⟨3, ![a, 1, c]⟩ : Shape).BroadcastsInDim ⟨3, ![a, n, c]⟩ ![0, 1, 2])
    (hc : (⟨3, ![a, n, c]⟩ : Shape).ShapeCasts ⟨2, ![a, N]⟩) : FVec Ideal ⟨2, ![a, N]⟩ .f32 :=
  shapeCast ⟨2, ![a, N]⟩
    (mulf (F := Ideal) (φ := .f32) (broadcastInDim ⟨3, ![a, n, c]⟩ ![0, 1, 2] hw2 (broadcastInDim ⟨3, ![a, n, 1]⟩ ![0, 1] hw1 w))
      (broadcastInDim ⟨3, ![a, n, c]⟩ ![0, 1, 2] hs2 (broadcastInDim ⟨3, ![a, 1, c]⟩ ![0, 2] hs1 s))) hc

/-- At column j = r·c + l of row p it is w(p, r) · s(p, l). -/
theorem outer_apply {a n c N : ℕ} (w : FVec Ideal ⟨2, ![a, n]⟩ .f32) (s : FVec Ideal ⟨2, ![a, c]⟩ .f32)
    (hw1 : (⟨2, ![a, n]⟩ : Shape).BroadcastsInDim ⟨3, ![a, n, 1]⟩ ![0, 1])
    (hw2 : (⟨3, ![a, n, 1]⟩ : Shape).BroadcastsInDim ⟨3, ![a, n, c]⟩ ![0, 1, 2])
    (hs1 : (⟨2, ![a, c]⟩ : Shape).BroadcastsInDim ⟨3, ![a, 1, c]⟩ ![0, 2])
    (hs2 : (⟨3, ![a, 1, c]⟩ : Shape).BroadcastsInDim ⟨3, ![a, n, c]⟩ ![0, 1, 2])
    (hc : (⟨3, ![a, n, c]⟩ : Shape).ShapeCasts ⟨2, ![a, N]⟩) (hN : N = n * c)
    (p : Fin a) (r : Fin n) (l : Fin c) (j : Fin N) (hj : j.val = r.val * c + l.val) :
    outer w s hw1 hw2 hs1 hs2 hc (ix2 p j) = w (ix2 p r) * s (ix2 p l) := by
  unfold outer
  rw [flatten_apply _ hc hN p r l j hj]
  show broadcastInDim ⟨3, ![a, n, c]⟩ ![0, 1, 2] hw2 (broadcastInDim ⟨3, ![a, n, 1]⟩ ![0, 1] hw1 w) (ix3 p r l)
      * broadcastInDim ⟨3, ![a, n, c]⟩ ![0, 1, 2] hs2 (broadcastInDim ⟨3, ![a, 1, c]⟩ ![0, 2] hs1 s) (ix3 p r l) = _
  rw [LibInDimLayout.inDim_ab1_abc_apply, LibInDimLayout.inDim_ab_ab1_apply, inDim_a1c_abc_apply, inDim_ac_a1c_apply]

end Cert.LibOuterProduct

end
-- ==== Proof.GroupProducts.lean ====
/-
  The firing strengths of the rules as iterated outer products, and their factorisation over two groups of inputs.

  For a [1024, m, 4] array x of membership values (row b, input i, fuzzy set l) the strength of the rule that picks set
  l_i for input i is the product over i of x(b, i, l_i).  It is built by repeated flattened outer products, the first
  input's digit most significant: after the inputs 0..t the column number is the base-4 number l_0 l_1 … l_t.  With
  eight inputs the column r = 256·q + k has the first four digits those of q and the last four those of k, so the
  strength of rule r is the strength of q over the inputs 0..3 times the strength of k over the inputs 4..7; only the
  associativity of the product on the extended reals is used.
-/
import proofs.«115596_j19104014532939_2_alg».proof.Proof.LibOuterProduct
import proofs.«115596_j19104014532939_2_alg».proof.Proof.RuleSums

noncomputable section

namespace Cert.GroupProducts

open Idealize.ShloMosaic Idealize.ShloMosaic.ValueIdx Cert.LibOuterProduct Cert.RuleSums

/-- A [1024, n] matrix of extended reals. -/
abbrev Mat (n : ℕ) := FVec Ideal ⟨2, ![1024, n]⟩ .f32
/-- A [1024, m, 4] array of membership values. -/
abbrev Mem (m : ℕ) := FVec Ideal ⟨3, ![1024, m, 4]⟩ .f32

/-- The four base-4 digits of a column number below 256, most significant first. -/
def dg3 (q : Fin 256) : Fin 4 := ⟨q.val / 64, by omega⟩
def dg2 (q : Fin 256) : Fin 4 := ⟨q.val / 16 % 4, by omega⟩
def dg1 (q : Fin 256) : Fin 4 := ⟨q.val / 4 % 4, by omega⟩
def dg0 (q : Fin 256) : Fin 4 := ⟨q.val % 4, by omega⟩

/-- The strengths over four inputs: three outer products. -/
def chain4 (x : Mem 4) : Mat 256 :=
  outer (outer (outer (pick 0 x (by decide) (by decide)) (pick 1 x (by decide) (by decide))
        (by decide) (by decide) (by decide) (by decide) (by decide) : Mat 16)
      (pick 2 x (by decide) (by decide)) (by decide) (by decide) (by decide) (by decide) (by decide) : Mat 64)
    (pick 3 x (by decide) (by decide)) (by decide) (by decide) (by decide) (by decide) (by decide)

/-- The strengths over eight inputs: seven outer products. -/
def chain8 (x : Mem 8) : Mat 65536 :=
  outer (outer (outer (outer (outer (outer (outer (pick 0 x (by decide) (by decide)) (pick 1 x (by decide) (by decide))
        (by decide) (by decide) (by decide) (by decide) (by decide) : Mat 16)
      (pick 2 x (by decide) (by decide)) (by decide) (by decide) (by decide) (by decide) (by decide) : Mat 64)
    (pick 3 x (by decide) (by decide)) (by decide) (by decide) (by decide) (by decide) (by decide) : Mat 256)
    (pick 4 x (by decide) (by decide)) (by decide) (by decide) (by decide) (by decide) (by decide) : Mat 1024)
    (pick 5 x (by decide) (by decide)) (by decide) (by decide) (by decide) (by decide) (by decide) : Mat 4096)
    (pick 6 x (by decide) (by decide)) (by decide) (by decide) (by decide) (by decide) (by decide) : Mat 16384)
    (pick 7 x (by decide) (by decide)) (by decide) (by decide) (by decide) (by decide) (by decide)

/-- Inputs 0..3 of the eight. -/
def bandLo (x : Mem 8) : Mem 4 := extractStridedSlice ⟨3, ![1024, 4, 4]⟩ ![0, 0, 0] x (by decide)
/-- Inputs 4..7 of the eight. -/
def bandHi (x : Mem 8) : Mem 4 := extractStridedSlice ⟨3, ![1024, 4, 4]⟩ ![0, 4, 0] x (by decide)

/-- The strength of column q over four inputs is the product of the four membership values its digits pick. -/
theorem chain4_apply (x : Mem 4) (b : Fin 1024) (q : Fin 256) :
    chain4 x (ix2 b q) = ((x (ix3 b (0 : Fin 4) (dg3 q)) * x (ix3 b (1 : Fin 4) (dg2 q))) * x (ix3 b (2 : Fin 4) (dg1 q)))
        * x (ix3 b (3 : Fin 4) (dg0 q)) := by
  unfold chain4
  rw [outer_apply _ _ _ _ _ _ _ rfl b (⟨q.val / 4, by omega⟩ : Fin 64) (dg0 q) q (by show q.val = q.val / 4 * 4 + q.val % 4; omega),
    outer_apply _ _ _ _ _ _ _ rfl b (⟨q.val / 16, by omega⟩ : Fin 16) (dg1 q) (⟨q.val / 4, by omega⟩ : Fin 64)
      (by show q.val / 4 = q.val / 16 * 4 + q.val / 4 % 4; omega),
    outer_apply _ _ _ _ _ _ _ rfl b (dg3 q) (dg2 q) (⟨q.val / 16, by omega⟩ : Fin 16)
      (by show q.val / 16 = q.val / 64 * 4 + q.val / 16 % 4; omega),
    pick_apply 0 x _ _ b (dg3 q) (0 : Fin 4) rfl, pick_apply 1 x _ _ b (dg2 q) (1 : Fin 4) rfl,
    pick_apply 2 x _ _ b (dg1 q) (2 : Fin 4) rfl, pick_apply 3 x _ _ b (dg0 q) (3 : Fin 4) rfl]

/-- The lower band's entries are the array's at the same input. -/
theorem bandLo_apply (x : Mem 8) (b : Fin 1024) (i : Fin 4) (l : Fin 4) :
    bandLo x (ix3 b i l) = x (ix3 b (⟨i.val, by omega⟩ : Fin 8) l) :=
  slice_band_apply 0 x _ b i l _ (by show i.val = 0 + i.val; omega)

/-- The upper band's entries are the array's four inputs further on. -/
theorem bandHi_apply (x : Mem 8) (b : Fin 1024) (i : Fin 4) (l : Fin 4) :
    bandHi x (ix3 b i l) = x (ix3 b (⟨4 + i.val, by omega⟩ : Fin 8) l) :=
  slice_band_apply 4 x _ b i l _ rfl

/-- The strength of rule 256·q + k over eight inputs is the strength of q over the first four times the strength of k
    over the last four. -/
theorem chain8_split (x : Mem 8) (b : Fin 1024) (q k : Fin 256) :
    chain8 x (ix2 b (pair q k)) = chain4 (bandLo x) (ix2 b q) * chain4 (bandHi x) (ix2 b k) := by
  rw [chain4_apply, chain4_apply]
  simp only [bandLo_apply, bandHi_apply]
  unfold chain8
  rw [outer_apply _ _ _ _ _ _ _ rfl b (⟨q.val * 64 + k.val / 4, by omega⟩ : Fin 16384) (dg0 k) (pair q k)
      (by show q.val * 256 + k.val = (q.val * 64 + k.val / 4) * 4 + k.val % 4; omega),
    outer_apply _ _ _ _ _ _ _ rfl b (⟨q.val * 16 + k.val / 16, by omega⟩ : Fin 4096) (dg1 k) (⟨q.val * 64 + k.val / 4, by omega⟩ : Fin 16384)
      (by show q.val * 64 + k.val / 4 = (q.val * 16 + k.val / 16) * 4 + k.val / 4 % 4; omega),
    outer_apply _ _ _ _ _ _ _ rfl b (⟨q.val * 4 + k.val / 64, by omega⟩ : Fin 1024) (dg2 k) (⟨q.val * 16 + k.val / 16, by omega⟩ : Fin 4096)
      (by show q.val * 16 + k.val / 16 = (q.val * 4 + k.val / 64) * 4 + k.val / 16 % 4; omega),
    outer_apply _ _ _ _ _ _ _ rfl b q (dg3 k) (⟨q.val * 4 + k.val / 64, by omega⟩ : Fin 1024)
      (by show q.val * 4 + k.val / 64 = q.val * 4 + k.val / 64; rfl),
    outer_apply _ _ _ _ _ _ _ rfl b (⟨q.val / 4, by omega⟩ : Fin 64) (dg0 q) q (by show q.val = q.val / 4 * 4 + q.val % 4; omega),
    outer_apply _ _ _ _ _ _ _ rfl b (⟨q.val / 16, by omega⟩ : Fin 16) (dg1 q) (⟨q.val / 4, by omega⟩ : Fin 64)
      (by show q.val / 4 = q.val / 16 * 4 + q.val / 4 % 4; omega),
    outer_apply _ _ _ _ _ _ _ rfl b (dg3 q) (dg2 q) (⟨q.val / 16, by omega⟩ : Fin 16)
      (by show q.val / 16 = q.val / 64 * 4 + q.val / 16 % 4; omega),
    pick_apply 0 x _ _ b (dg3 q) (0 : Fin 8) rfl, pick_apply 1 x _ _ b (dg2 q) (1 : Fin 8) rfl,
    pick_apply 2 x _ _ b (dg1 q) (2 : Fin 8) rfl, pick_apply 3 x _ _ b (dg0 q) (3 : Fin 8) rfl,
    pick_apply 4 x _ _ b (dg3 k) (4 : Fin 8) rfl, pick_apply 5 x _ _ b (dg2 k) (5 : Fin 8) rfl,
    pick_apply 6 x _ _ b (dg1 k) (6 : Fin 8) rfl, pick_apply 7 x _ _ b (dg0 k) (7 : Fin 8) rfl]
  simp only [mul_assoc]
  rfl

/-- A product of four nonnegative reals, on the extended reals, is a nonnegative real. -/
theorem prod4_real {a b c d : EReal} (ha : ∃ r : ℝ, 0 ≤ r ∧ a = (r : EReal)) (hb : ∃ r : ℝ, 0 ≤ r ∧ b = (r : EReal))
    (hc : ∃ r : ℝ, 0 ≤ r ∧ c = (r : EReal)) (hd : ∃ r : ℝ, 0 ≤ r ∧ d = (r : EReal)) :
    ∃ r : ℝ, 0 ≤ r ∧ ((a * b) * c) * d = (r : EReal) := by
  obtain ⟨ra, ha0, rfl⟩ := ha
  obtain ⟨rb, hb0, rfl⟩ := hb
  obtain ⟨rc, hc0, rfl⟩ := hc
  obtain ⟨rd, hd0, rfl⟩ := hd
  exact ⟨((ra * rb) * rc) * rd, by positivity, by push_cast; rfl⟩

/-- With nonnegative real membership values the strengths over four inputs are nonnegative reals. -/
theorem chain4_real (x : Mem 4) (hx : ∀ i, ∃ r : ℝ, 0 ≤ r ∧ x i = (r : EReal)) (b : Fin 1024) (q : Fin 256) :
    ∃ r : ℝ, 0 ≤ r ∧ chain4 x (ix2 b q) = (r : EReal) := by
  rw [chain4_apply]
  exact prod4_real (hx _) (hx _) (hx _) (hx _)

end Cert.GroupProducts

end
-- ==== Proof.LibConcatPair.lean ====
/-
  Two arrays laid side by side, read at an index.

  A concatenation of two pieces along an axis reads, at an index whose coordinate on that axis is `k`, the first piece at
  `k` when `k` is below the first piece's extent `a`, and otherwise the second piece at `k - a`; the other coordinates pass
  through. Stated here for the two layouts a fused pair of weight matrices and a fused pair of bias vectors have:
  matrices `[n, a]` and `[n, b]` joined along their columns into `[n, c]`, and vectors `[a]` and `[b]` joined into `[c]`.
  (`c = a + b` is part of the hypothesis `h`; the statements never need it spelt out.)
-/
import Idealize.ShloMosaic.Lib.ValueIdx
import Idealize.ShloMosaic.Lib.Pipeline.Value

namespace Idealize.ShloMosaic.ConcatPair

open Idealize.ShloMosaic Idealize.ShloMosaic.ValueIdx

variable {α : Type}

/-- Columns `[0, a)` of `[u | v]` are `u`'s. -/
theorem cols_left {n a b c : ℕ} (u : (⟨2, ![n, a]⟩ : Shape).Idx → α) (v : (⟨2, ![n, b]⟩ : Shape).Idx → α)
    (h : Shape.Concatenates [(⟨2, ![n, a]⟩ : Shape), ⟨2, ![n, b]⟩] ⟨2, ![n, c]⟩ 1)
    (p : Fin n) (k : Fin c) (q : Fin a) (hq : q.val = k.val) :
    concatenate (⟨2, ![n, c]⟩ : Shape) 1 [⟨⟨2, ![n, a]⟩, u⟩, ⟨⟨2, ![n, b]⟩, v⟩] h (ix2 p k) = u (ix2 p q) :=
  concatenate_pair_apply_left 1 u v h (ix2 p k) rfl (ix2 p q) (fun d => by
    match d with
    | ⟨0, _⟩ => rfl
    | ⟨1, _⟩ => exact hq)

/-- Columns `[a, a + b)` of `[u | v]` are `v`'s, shifted by `a`. -/
theorem cols_right {n a b c : ℕ} (u : (⟨2, ![n, a]⟩ : Shape).Idx → α) (v : (⟨2, ![n, b]⟩ : Shape).Idx → α)
    (h : Shape.Concatenates [(⟨2, ![n, a]⟩ : Shape), ⟨2, ![n, b]⟩] ⟨2, ![n, c]⟩ 1)
    (p : Fin n) (k : Fin c) (q : Fin b) (hq : q.val + a = k.val) :
    concatenate (⟨2, ![n, c]⟩ : Shape) 1 [⟨⟨2, ![n, a]⟩, u⟩, ⟨⟨2, ![n, b]⟩, v⟩] h (ix2 p k) = v (ix2 p q) :=
  concatenate_pair_apply_right 1 u v h (ix2 p k) rfl rfl (ix2 p q) (fun d hd => by
    match d with
    | ⟨0, _⟩ => rfl
    | ⟨1, _⟩ => exact absurd rfl hd) hq

/-- Entries `[0, a)` of the joined vector are `u`'s. -/
theorem vec_left {a b c : ℕ} (u : (⟨1, ![a]⟩ : Shape).Idx → α) (v : (⟨1, ![b]⟩ : Shape).Idx → α)
    (h : Shape.Concatenates [(⟨1, ![a]⟩ : Shape), ⟨1, ![b]⟩] ⟨1, ![c]⟩ 0)
    (k : Fin c) (q : Fin a) (hq : q.val = k.val) :
    concatenate (⟨1, ![c]⟩ : Shape) 0 [⟨⟨1, ![a]⟩, u⟩, ⟨⟨1, ![b]⟩, v⟩] h (ix1 k) = u (ix1 q) :=
  concatenate_pair_apply_left 0 u v h (ix1 k) rfl (ix1 q) (fun d => by
    match d with
    | ⟨0, _⟩ => exact hq)

/-- Entries `[a, a + b)` of the joined vector are `v`'s, shifted by `a`. -/
theorem vec_right {a b c : ℕ} (u : (⟨1, ![a]⟩ : Shape).Idx → α) (v : (⟨1, ![b]⟩ : Shape).Idx → α)
    (h : Shape.Concatenates [(⟨1, ![a]⟩ : Shape), ⟨1, ![b]⟩] ⟨1, ![c]⟩ 0)
    (k : Fin c) (q : Fin b) (hq : q.val + a = k.val) :
    concatenate (⟨1, ![c]⟩ : Shape) 0 [⟨⟨1, ![a]⟩, u⟩, ⟨⟨1, ![b]⟩, v⟩] h (ix1 k) = v (ix1 q) :=
  concatenate_pair_apply_right 0 u v h (ix1 k) rfl rfl (ix1 q) (fun d hd => by
    match d with
    | ⟨0, _⟩ => exact absurd rfl hd) hq

end Idealize.ShloMosaic.ConcatPair
-- ==== Proof.LibRowPairs.lean ====
/-
  Rows indexed by a pair, read at an index.

  A batch of `a · b` rows of length `c` is held either as a matrix `[n, c]` with `n = a · b`, row `p · b + q` being
  the row of the pair `(p, q)`, or as an array `[a, b, c]`; one value per pair is held either as `[a, b]` or as one line
  `[1, 1, n]`. A shape cast keeps the row-major position of every element, so reading one form at its index reads the
  other form at the index of the same pair. That `n = a · b` is part of the cast's hypothesis; the statements only need
  the row's number written as `p · b + q`.
-/
import Idealize.ShloMosaic.Lib.Pipeline.Value
import Idealize.ShloMosaic.Lib.ValueIdx

namespace Idealize.ShloMosaic.RowPairs

open Idealize.ShloMosaic Idealize.ShloMosaic.ValueIdx

variable {α : Type}

/-- An `[a, b, c]` array cast to the matrix `[n, c]` reads, at row `p · b + q` and column `k`, the array at `(p, q, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- The matrix `[n, c]` cast to `[a, b, c]` reads, at `(p, q, k)`, the matrix at row `p · b + q` and column `k`. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

/-- An `[a, b]` array of one value per pair, cast to the line `[1, 1, n]`, reads at position `p · b + q` the value of
    the pair `(p, q)`. -/
theorem shapeCast_ab_11n_apply {a b n : ℕ} (z : (⟨2, ![a, b]⟩ : Shape).Idx → α)
    (h : (⟨2, ![a, b]⟩ : Shape).ShapeCasts ⟨3, ![1, 1, n]⟩) (u v : Fin 1) (p : Fin a) (q : Fin b) (j : Fin n)
    (hj : j.val = p.val * b + q.val) :
    shapeCast ⟨3, ![1, 1, n]⟩ z h (ix3 u v j) = z (ix2 p q) :=
  shapeCast_apply z h _ _ (by
    have hu : u.val = 0 := by omega
    have hv : v.val = 0 := by omega
    rw [Shape.rowMajor_val_two, Shape.rowMajor_val_three]
    show p.val * b + q.val = (u.val * 1 + v.val) * n + j.val
    rw [hu, hv, hj]
    simp)

end Idealize.ShloMosaic.RowPairs
-- ==== Proof.PackedMatrix.lean ====
/-
  The packed coefficient matrix, read at an index.

  The weights cw : [65536, 8] of the rules r = 256·q + k are viewed as [256, 256, 8] (q, k, input), moved to (k, input, q)
  and flattened to [256, 2048], so that column i·256 + q of row k is cw(256·q + k, i); the biases cb : [65536] are viewed
  as [256, 256] (q, k) and transposed, so that column q of row k is cb(256·q + k); joining the two along the columns
  puts the biases in columns 2048 + q.  The closing change of float format is the identity on extended reals.
-/
import proofs.«115596_j19104014532939_2_alg».proof.Proof.LibOuterProduct
import proofs.«115596_j19104014532939_2_alg».proof.Proof.LibConcatPair
import proofs.«115596_j19104014532939_2_alg».proof.Proof.LibRowPairs
import proofs.«115596_j19104014532939_2_alg».proof.Proof.RowForms
import Idealize.ShloMosaic.PureOps.Ideal.Laws

noncomputable section

namespace Cert.PackedMatrix

open Idealize.ShloMosaic Idealize.ShloMosaic.ValueIdx Cert.LibOuterProduct Cert.RuleSums Cert.RowForms

/-- The weights moved to (second-group index, input, first-group index) and flattened: [256, 2048]. -/
def weightSlabs (cw : FVec Ideal ⟨2, ![65536, 8]⟩ .f32) : FVec Ideal ⟨2, ![256, 2048]⟩ .f32 :=
  shapeCast ⟨2, ![256, 2048]⟩
    (transpose ⟨3, ![256, 8, 256]⟩ [1, 2, 0] (shapeCast ⟨3, ![256, 256, 8]⟩ cw (by decide)) (by decide)) (by decide)

/-- The biases as a [256, 256] matrix (second-group index, first-group index). -/
def biasSlab (cb : FVec Ideal ⟨1, ![65536]⟩ .f32) : FVec Ideal ⟨2, ![256, 256]⟩ .f32 :=
  transpose ⟨2, ![256, 256]⟩ [1, 0] (shapeCast ⟨2, ![256, 256]⟩ cb (by decide)) (by decide)

/-- The weight slabs [256, 2048] and the bias slab [256, 256] join along the columns into [256, 2304]. -/
theorem hcat : Shape.Concatenates [(⟨2, ![256, 2048]⟩ : Shape), ⟨2, ![256, 256]⟩] ⟨2, ![256, 2304]⟩ 1 := by decide

/-- The packed matrix: the eight weight slabs, then the bias slab, narrowed in format. -/
def packed (cw : FVec Ideal ⟨2, ![65536, 8]⟩ .f32) (cb : FVec Ideal ⟨1, ![65536]⟩ .f32) : FVec Ideal ⟨2, ![256, 2304]⟩ .bf16 :=
  truncf .bf16 (concatenate ⟨2, ![256, 2304]⟩ 1 [⟨⟨2, ![256, 2048]⟩, weightSlabs cw⟩, ⟨⟨2, ![256, 256]⟩, biasSlab cb⟩] hcat)
    (by decide)

/-- Column i·256 + q of row k of the weight slabs is the weight of input i in rule 256·q + k. -/
theorem weightSlabs_apply (cw : FVec Ideal ⟨2, ![65536, 8]⟩ .f32) (q k : Fin 256) (i : Fin 8) (j : Fin 2048)
    (hj : j.val = i.val * 256 + q.val) : weightSlabs cw (ix2 k j) = cw (ix2 (pair q k) i) := by
  unfold weightSlabs
  rw [flatten_apply _ _ rfl k i q j hj]
  refine (transpose_apply [1, 2, 0] _ _ (ix3 k i q) (ix3 q k i) (fun b => ?_)).trans ?_
  · match b with
    | ⟨0, _⟩ => rfl
    | ⟨1, _⟩ => rfl
    | ⟨2, _⟩ => rfl
  · exact RowPairs.shapeCast_nc_abc_apply cw _ q k i (pair q k) rfl

/-- Column q of row k of the bias slab is the bias of rule 256·q + k. -/
theorem biasSlab_apply (cb : FVec Ideal ⟨1, ![65536]⟩ .f32) (q k : Fin 256) :
    biasSlab cb (ix2 k q) = cb (ix1 (pair q k)) := by
  unfold biasSlab
  refine (transpose_apply [1, 0] _ _ (ix2 k q) (ix2 q k) (fun b => ?_)).trans ?_
  · match b with
    | ⟨0, _⟩ => rfl
    | ⟨1, _⟩ => rfl
  · exact shapeCast_apply cb _ _ _ (by
      rw [Shape.rowMajor_val_one, Shape.rowMajor_val_two]
      show q.val * 256 + k.val = q.val * 256 + k.val
      rfl)

/-- The packed matrix holds the weights in the columns i·256 + q, i < 8 … -/
theorem packed_weight (cw : FVec Ideal ⟨2, ![65536, 8]⟩ .f32) (cb : FVec Ideal ⟨1, ![65536]⟩ .f32) (q k : Fin 256) (i : Fin 8) :
    packed cw cb (ix2 k (col i.val (by omega) q)) = cw (ix2 (pair q k) i) := by
  unfold packed
  show concatenate ⟨2, ![256, 2304]⟩ 1 [⟨⟨2, ![256, 2048]⟩, weightSlabs cw⟩, ⟨⟨2, ![256, 256]⟩, biasSlab cb⟩] hcat (ix2 k (col i.val _ q)) = _
  rw [ConcatPair.cols_left (weightSlabs cw) (biasSlab cb) hcat k (col i.val (by omega) q) (⟨i.val * 256 + q.val, by omega⟩ : Fin 2048) rfl]
  exact weightSlabs_apply cw q k i _ rfl

/-- … and the biases in the columns 2048 + q. -/
theorem packed_bias (cw : FVec Ideal ⟨2, ![65536, 8]⟩ .f32) (cb : FVec Ideal ⟨1, ![65536]⟩ .f32) (q k : Fin 256) :
    packed cw cb (ix2 k (col 8 (by omega) q)) = cb (ix1 (pair q k)) := by
  unfold packed
  show concatenate ⟨2, ![256, 2304]⟩ 1 [⟨⟨2, ![256, 2048]⟩, weightSlabs cw⟩, ⟨⟨2, ![256, 256]⟩, biasSlab cb⟩] hcat (ix2 k (col 8 _ q)) = _
  rw [ConcatPair.cols_right (weightSlabs cw) (biasSlab cb) hcat k (col 8 (by omega) q) q (by show q.val + 2048 = 8 * 256 + q.val; omega)]
  exact biasSlab_apply cb q k

end Cert.PackedMatrix

end
-- ==== Proof.KernelHost.lean ====
/-
  The arrays the kernel's region finds: the two groups' firing strengths and the packed coefficient matrix.

  Before the region the host computes the membership values exactly as the reference does, takes the inputs 0..3 and
  4..7 as two bands, builds each band's strengths by three flattened outer products, and packs the weights and biases:
  the weights [65536, 8] are viewed as [256, 256, 8] (first-group index, second-group index, input), moved to
  (second-group index, input, first-group index), flattened to [256, 2048]; the biases [65536] are viewed as [256, 256]
  and transposed; the two are joined along the columns into [256, 2304] and narrowed in format, which is the identity
  on extended reals.
-/
import proofs.«115596_j19104014532939_2_alg».proof.Proof.Gen.KernelIdeal.Value
import proofs.«115596_j19104014532939_2_alg».proof.Proof.Gen.ReferenceIdeal.Read
import proofs.«115596_j19104014532939_2_alg».proof.Proof.GroupProducts
import proofs.«115596_j19104014532939_2_alg».proof.Proof.PackedMatrix
import Idealize.ShloMosaic.Lib.StableHlo.Run
import Idealize.ShloMosaic.PureOps.Ideal
import Idealize.ShloMosaic.PureOps.Ideal.Laws

noncomputable section

namespace Cert.KernelHost

open Cert.KernelIdeal Cert.KernelIdeal.Gen Idealize.ShloMosaic Idealize.ShloMosaic.TcCoe Idealize.SL.Sem Idealize.ShloMosaic.StableHlo
open Cert.GroupProducts Cert.PackedMatrix

variable [Cert.KernelIdeal.Facts] [Cert.ReferenceIdeal.Facts]

/-- The membership values as the host computes them from x, mu, sigma. -/
abbrev memb (x0 : FVec Ideal S1024x8 .f32) (x1 x2 : FVec Ideal S8x4 .f32) : Mem 8 :=
  Cert.ReferenceIdeal.Read.val_main_v18 (F := Ideal) x0 x1 x2

set_option maxRecDepth 8192 in
set_option maxHeartbeats 40000000 in
/-- The first group's strengths as the region finds them. -/
theorem V_p1 (m : (ℓ : Loc nD τ sig) → Buf (Elt Ideal) ℓ) (c : Dev nD) :
    (Gen.V m c main_v45 : S1024x256.Idx → EReal)
      = chain4 (bandLo (memb (m ((c : Thread nD τ).loc main_arg0)) (m ((c : Thread nD τ).loc main_arg1)) (m ((c : Thread nD τ).loc main_arg2)))) := by
  show StableHlo.after hostOps0 (fun b => m (c, b)) (Proc.devRef .tc main_v45) = _
  after_results_simp
  rfl

set_option maxRecDepth 8192 in
set_option maxHeartbeats 40000000 in
/-- The second group's strengths as the region finds them. -/
theorem V_p2 (m : (ℓ : Loc nD τ sig) → Buf (Elt Ideal) ℓ) (c : Dev nD) :
    (Gen.V m c main_v72 : S1024x256.Idx → EReal)
      = chain4 (bandHi (memb (m ((c : Thread nD τ).loc main_arg0)) (m ((c : Thread nD τ).loc main_arg1)) (m ((c : Thread nD τ).loc main_arg2)))) := by
  show StableHlo.after hostOps0 (fun b => m (c, b)) (Proc.devRef .tc main_v72) = _
  after_results_simp
  rfl

set_option maxRecDepth 8192 in
set_option maxHeartbeats 40000000 in
/-- The packed coefficient matrix as the region finds it. -/
theorem V_w (m : (ℓ : Loc nD τ sig) → Buf (Elt Ideal) ℓ) (c : Dev nD) :
    (Gen.V m c main_v79 : S256x2304.Idx → EReal)
      = packed (m ((c : Thread nD τ).loc main_arg3)) (m ((c : Thread nD τ).loc main_arg4)) := by
  show StableHlo.after hostOps0 (fun b => m (c, b)) (Proc.devRef .tc main_v79) = _
  after_results_simp
  rfl

end Cert.KernelHost

end
-- ==== Proof.RefValue.lean ====
/-
  The reference's result, row by row.

  Row b of the reference's [1024, 1] result is the sum over the 65536 rules r of the normalised strength
  w(b, r) / (∑ w(b, ·) + ε) times the rule's first-order output ∑_i x(b, i) · cw(r, i) + cb(r); the strengths w are the
  seven flattened outer products over the membership values.  Each host sum starts from the zero word, which adds
  nothing.
-/
import proofs.«115596_j19104014532939_2_alg».proof.Proof.Gen.ReferenceIdeal.Read
import proofs.«115596_j19104014532939_2_alg».proof.Proof.GroupProducts
import proofs.«115596_j19104014532939_2_alg».proof.Proof.RuleSums
import Idealize.ShloMosaic.Lib.ValueIdx
import Idealize.ShloMosaic.PureOps.Ideal.Laws

noncomputable section

namespace Cert.RefValue

open Idealize.ShloMosaic Idealize.ShloMosaic.ValueIdx Cert.ReferenceIdeal Cert.ReferenceIdeal.Read Cert.GroupProducts Cert.RuleSums

variable [Cert.ReferenceIdeal.Facts]

set_option maxRecDepth 8192 in
/-- The strengths of all rules are the seven outer products over the membership values. -/
theorem strengths_eq (x0 : FVec Ideal S1024x8 .f32) (x1 x2 : FVec Ideal S8x4 .f32) :
    (val_main_v76 (F := Ideal) x0 x1 x2 : Mat 65536) = chain8 (val_main_v18 (F := Ideal) x0 x1 x2) := rfl

/-- Row b of the reference's result in the rule-by-rule form. -/
theorem ref_row (x0 : FVec Ideal S1024x8 .f32) (x1 x2 : FVec Ideal S8x4 .f32) (x3 : FVec Ideal S65536x8 .f32)
    (x4 : FVec Ideal S65536 .f32) (b : Fin 1024) (u : Fin 1) :
    val_main_v89 (F := Ideal) x0 x1 x2 x3 x4 (ix2 b u)
      = refRow (Ideal.ofBits .f32 0x358637BD#32) (fun i => x0 (ix2 b i))
          (fun r => chain8 (val_main_v18 (F := Ideal) x0 x1 x2) (ix2 b r)) (fun r i => x3 (ix2 r i)) (fun r => x4 (ix1 r)) := by
  have e1 : ∀ k : Fin 65536, idx_main_v88 (idx_main_v89 (ix2 b u)) k = ix2 b k := fun k =>
    funext fun a => Fin.ext (by match a with | ⟨0, _⟩ => rfl | ⟨1, _⟩ => rfl)
  have e2 : ∀ k k' : Fin 65536, idx_main_v77 (idx_main_v78 (idx_main_v81 (ix2 b k))) k' = ix2 b k' := fun k k' =>
    funext fun a => Fin.ext (by match a with | ⟨0, _⟩ => rfl | ⟨1, _⟩ => rfl)
  have e3 : ∀ (k : Fin 65536) (i : Fin 8), lidx_main_v83 (ix2 b k) i = ix2 b i := fun k i =>
    funext fun a => Fin.ext (by match a with | ⟨0, _⟩ => rfl | ⟨1, _⟩ => rfl)
  have e4 : ∀ (k : Fin 65536) (i : Fin 8), ridx_main_v83 (ix2 b k) i = ix2 k i := fun k i =>
    funext fun a => Fin.ext (by match a with | ⟨0, _⟩ => rfl | ⟨1, _⟩ => rfl)
  have e5 : ∀ k : Fin 65536, idx_main_v84 (idx_main_v85 (ix2 b k)) = ix1 k := fun k =>
    funext fun a => Fin.ext (by match a with | ⟨0, _⟩ => rfl)
  rw [val_main_v89_apply, val_main_v88_apply]
  simp only [val_main_v87_apply, val_main_v82_apply, val_main_v86_apply, val_main_v83_apply, val_main_v85_apply,
    val_main_v84_apply, val_main_v81_apply, val_main_v80_apply, val_main_v78_apply, val_main_v79_apply, val_main_v77_apply,
    val_main_cst_3_apply, val_main_cst_2_apply, val_main_cst_4_apply, strengths_eq, e1, e2, e3, e4, e5,
    Ideal.ofBits_def, Ideal.ofBits_zero_f32, zero_add, Ideal.hostDivf_def, Ideal.addf_def, Ideal.mulf_def]
  rfl

end Cert.RefValue

end
-- ==== Proof.RowBridge.lean ====
/-
  One row of the two programs' outputs, as functions of the same data, agree.

  For a row b the body's row function is applied to the row of inputs, the two groups' strengths over the membership
  values M, and the packed coefficient matrix; the reference's rule-by-rule form is applied to the same inputs, the
  strengths of all 65536 rules, and the weights and biases as given.  The packed matrix holds the weights and biases of
  rule 256·q + k at row k, the strength of that rule is the product of the two groups' strengths, all entries are real
  and the strengths nonnegative, so the factored and the rule-by-rule forms agree.
-/
import proofs.«115596_j19104014532939_2_alg».proof.Proof.RowForms
import proofs.«115596_j19104014532939_2_alg».proof.Proof.RuleSums
import proofs.«115596_j19104014532939_2_alg».proof.Proof.GroupProducts
import proofs.«115596_j19104014532939_2_alg».proof.Proof.PackedMatrix

noncomputable section

namespace Cert.RowBridge

open Idealize.ShloMosaic Idealize.ShloMosaic.ValueIdx Cert.RuleSums Cert.RowForms Cert.GroupProducts Cert.PackedMatrix

/-- The word 0x358637BD (9.99999997e-7) denotes a positive real number. -/
theorem eps_pos : ∃ e : ℝ, 0 < e ∧ Ideal.ofBits .f32 0x358637BD#32 = (e : EReal) := by
  simp [Ideal.ofBits, Ideal.ieee, -EReal.coe_mul]

/-- Row b of the kernel's output function is row b of the reference's. -/
theorem row_bridge (ε : EReal) (hε : ∃ e : ℝ, 0 < e ∧ ε = (e : EReal))
    (x0 : FVec Ideal ⟨2, ![1024, 8]⟩ .f32) (M : Mem 8) (x3 : FVec Ideal ⟨2, ![65536, 8]⟩ .f32)
    (x4 : FVec Ideal ⟨1, ![65536]⟩ .f32)
    (h0 : ∀ i, ∃ r : ℝ, x0 i = (r : EReal)) (hM : ∀ i, ∃ r : ℝ, 0 ≤ r ∧ M i = (r : EReal))
    (h3 : ∀ i, ∃ r : ℝ, x3 i = (r : EReal)) (h4 : ∀ i, ∃ r : ℝ, x4 i = (r : EReal)) (b : Fin 1024) :
    bodyRow ε (fun j => x0 (ix2 b j)) (fun q => chain4 (bandLo M) (ix2 b q)) (fun k => chain4 (bandHi M) (ix2 b k))
        (fun k j => packed x3 x4 (ix2 k j))
      = refRow ε (fun i => x0 (ix2 b i)) (fun r => chain8 M (ix2 b r)) (fun r i => x3 (ix2 r i)) (fun r => x4 (ix1 r)) := by
  -- the body's row is the factored rule-sum form over the weights and biases as given
  rw [bodyRow_eq_kerRow ε _ _ _ _ (fun r i => x3 (ix2 r i)) (fun r => x4 (ix1 r))
    (fun q k i => packed_weight x3 x4 q k i) (fun q k => packed_bias x3 x4 q k)]
  -- real families for the row of inputs, the weights and the biases
  choose X hX using fun j : Fin 8 => h0 (ix2 b j)
  choose CW hCW using fun (r : Fin 65536) (i : Fin 8) => h3 (ix2 r i)
  choose CB hCB using fun r : Fin 65536 => h4 (ix1 r)
  -- the two bands of membership values have nonnegative real entries
  have hLo : ∀ i, ∃ r : ℝ, 0 ≤ r ∧ bandLo M i = (r : EReal) := by
    have key : ∀ (c : Fin 1024) (i l : Fin 4), ∃ r : ℝ, 0 ≤ r ∧ bandLo M (ix3 c i l) = (r : EReal) := by
      intro c i l
      rw [bandLo_apply]
      exact hM _
    intro i
    have hi : i = ix3 (n0 := 1024) (n1 := 4) (n2 := 4) (i 0) (i 1) (i 2) := eq_ix3 i
    rw [hi]
    exact key (i 0) (i 1) (i 2)
  have hHi : ∀ i, ∃ r : ℝ, 0 ≤ r ∧ bandHi M i = (r : EReal) := by
    have key : ∀ (c : Fin 1024) (i l : Fin 4), ∃ r : ℝ, 0 ≤ r ∧ bandHi M (ix3 c i l) = (r : EReal) := by
      intro c i l
      rw [bandHi_apply]
      exact hM _
    intro i
    have hi : i = ix3 (n0 := 1024) (n1 := 4) (n2 := 4) (i 0) (i 1) (i 2) := eq_ix3 i
    rw [hi]
    exact key (i 0) (i 1) (i 2)
  -- hence the two groups' strengths are nonnegative reals
  choose P1 hP1n hP1 using fun q : Fin 256 => chain4_real (bandLo M) hLo b q
  choose P2 hP2n hP2 using fun k : Fin 256 => chain4_real (bandHi M) hHi b k
  obtain ⟨e, he, rfl⟩ := hε
  -- every function in sight is the coercion of a real family
  have e1 : (fun j => x0 (ix2 b j)) = fun j => (X j : EReal) := funext hX
  have e2 : (fun q => chain4 (bandLo M) (ix2 b q)) = fun q => (P1 q : EReal) := funext hP1
  have e3 : (fun k => chain4 (bandHi M) (ix2 b k)) = fun k => (P2 k : EReal) := funext hP2
  have e4 : (fun r i => x3 (ix2 r i)) = fun r i => (CW r i : EReal) := funext fun r => funext fun i => hCW r i
  have e5 : (fun r => x4 (ix1 r)) = fun r => (CB r : EReal) := funext hCB
  rw [e1, e2, e3, e4, e5]
  -- the strength of rule 256·q + k is the product of the two groups' strengths, so the two forms agree
  exact kerRow_eq_refRow e he X P1 P2 hP1n hP2n CW CB _ (fun q k => by rw [chain8_split, hP1, hP2])

end Cert.RowBridge

end
-- ==== Proof.Membership.lean ====
/-
  The Gaussian membership values are nonnegative real numbers.

  The membership of input i of row b in fuzzy set j is exp(-(x(b,i) - mu(i,j))² · 1/(2·(|sigma(i,j)| + c)²)) with c the
  positive constant 9.99999974e-6.  For real x, mu, sigma the denominator 2·(|sigma| + c)² is a positive real, its
  reciprocal is a positive real, the exponent is a real number, and the exponential of a real number is a positive real.
-/
import proofs.«115596_j19104014532939_2_alg».proof.Proof.Gen.ReferenceIdeal.Read
import Idealize.ShloMosaic.PureOps.Ideal
import Idealize.ShloMosaic.PureOps.Ideal.Laws
import Idealize.ShloMosaic.Lib.ValueIdx
import Mathlib.Tactic

noncomputable section

namespace Cert.Membership

open Idealize.ShloMosaic Cert.ReferenceIdeal Cert.ReferenceIdeal.Read

/-- The pattern 0x40000000 denotes the real number 2. -/
theorem two_bits : Ideal.ofBits .f32 0x40000000#32 = ((2 : ℝ) : EReal) := by
  simp [Ideal.ofBits, Ideal.ieee, -EReal.coe_mul] <;> norm_num

/-- The pattern 0x3F800000 denotes the real number 1. -/
theorem one_bits : Ideal.ofBits .f32 0x3F800000#32 = ((1 : ℝ) : EReal) := by
  simp [Ideal.ofBits, Ideal.ieee, -EReal.coe_mul] <;> norm_num

/-- The pattern 0x3727C5AC (9.99999974e-6) denotes a positive real number. -/
theorem cst_pos : ∃ c : ℝ, 0 < c ∧ Ideal.ofBits .f32 0x3727C5AC#32 = (c : EReal) := by
  simp [Ideal.ofBits, Ideal.ieee, -EReal.coe_mul]

/-- The absolute value max x (-x) of a real number, taken in the extended reals, is the real max s (-s). -/
theorem abs_coe (s : ℝ) : max (s : EReal) (-(s : EReal)) = ((max s (-s) : ℝ) : EReal) := by
  rw [← EReal.coe_neg]
  rcases le_total s (-s) with h | h
  · rw [max_eq_right h, max_eq_right (EReal.coe_le_coe_iff.2 h)]
  · rw [max_eq_left h, max_eq_left (EReal.coe_le_coe_iff.2 h)]

/-- The reciprocal factor 1/(2·(|sigma| + c)²) is a real number: for real sigma and c > 0 the sum |sigma| + c is
    positive, so the denominator 2·(|sigma| + c)² is a nonzero real and the quotient is 1 times its real reciprocal. -/
theorem v7_real [Cert.ReferenceIdeal.Facts] (x2 : FVec Ideal S8x4 .f32) (h2 : ∀ i, ∃ r : ℝ, x2 i = (r : EReal))
    (i : S8x4.Idx) : ∃ q : ℝ, val_main_v7 (F := Ideal) x2 i = (q : EReal) := by
  obtain ⟨s, hs⟩ := h2 i
  obtain ⟨c, hc, hcb⟩ := cst_pos
  rw [val_main_v7_apply, val_main_v6_apply, val_main_cst_1_apply, val_main_v5_apply, val_main_v4_apply,
    val_main_cst_0_apply, val_main_v3_apply, val_main_v2_apply, val_main_v1_apply, val_main_cst_apply,
    val_main_v0_apply, hs]
  simp only [Ideal.ofBits_def, two_bits, one_bits, hcb, Ideal.hostAbsf_def, Ideal.absf_def, Ideal.addf_def,
    Ideal.mulf_def, Ideal.hostDivf_def, abs_coe]
  have hpos : 0 < max s (-s) + c := by
    have hn : 0 ≤ max s (-s) := by
      rcases le_total 0 s with h | h
      · exact le_max_of_le_left h
      · exact le_max_of_le_right (neg_nonneg.2 h)
    linarith
  have hd : (2 * ((max s (-s) + c) * (max s (-s) + c)) : ℝ) ≠ 0 :=
    (mul_pos two_pos (mul_pos hpos hpos)).ne'
  rw [← EReal.coe_add, ← EReal.coe_mul, ← EReal.coe_mul, Ideal.div_coe hd, ← EReal.coe_mul]
  exact ⟨_, rfl⟩

/-- For real arguments every membership value is a nonnegative real number. -/
theorem memb_real [Cert.ReferenceIdeal.Facts] (x0 : FVec Ideal S1024x8 .f32) (x1 x2 : FVec Ideal S8x4 .f32)
    (h0 : ∀ i, ∃ r : ℝ, x0 i = (r : EReal)) (h1 : ∀ i, ∃ r : ℝ, x1 i = (r : EReal)) (h2 : ∀ i, ∃ r : ℝ, x2 i = (r : EReal))
    (i : S1024x8x4.Idx) : ∃ r : ℝ, 0 ≤ r ∧ val_main_v18 (F := Ideal) x0 x1 x2 i = (r : EReal) := by
  -- the three entries this value reads are real numbers
  obtain ⟨a, ha⟩ := h0 (idx_main_v8 (idx_main_v10 i))
  obtain ⟨m, hm⟩ := h1 (idx_main_v9 (idx_main_v11 i))
  obtain ⟨q, hq⟩ := v7_real x2 h2 (idx_main_v15 (idx_main_v16 i))
  rw [val_main_v18_apply, val_main_v17_apply, val_main_v16_apply, val_main_v15_apply, hq, val_main_v14_apply,
    val_main_v13_apply, val_main_v12_apply, val_main_v11_apply, val_main_v9_apply, hm, val_main_v10_apply,
    val_main_v8_apply, ha]
  simp only [Ideal.hostUnary_exp_def, Ideal.mulf_def, Ideal.subf_def, Ideal.hostNegf_def, Ideal.negf_def]
  -- the exponent -(a - m)² · q is a real number, and the exponential of a real number is positive
  rw [← EReal.coe_sub, ← EReal.coe_mul, ← EReal.coe_neg, ← EReal.coe_mul, Ideal.exp_coe]
  exact ⟨Real.exp _, (Real.exp_pos _).le, rfl⟩

end Cert.Membership

end
-- ==== Proof.FiniteArgs.lean ====
/-
  Finite inputs are real numbers.

  The precondition says that every entry of each of the five argument arrays has absolute value strictly below +∞.
  On the extended reals an entry with |x| < +∞ is neither +∞ nor -∞, so it is the image of a real number.
-/
import proofs.«115596_j19104014532939_2_alg».proof.Pre_finite_inputs
import Idealize.ShloMosaic.PureOps.Ideal
import Idealize.ShloMosaic.PureOps.Ideal.Laws
import Idealize.ShloMosaic.Lib.ValueIdx
import Idealize.ShloMosaic.Lib.ReduceAll
import Mathlib.Tactic

noncomputable section

namespace Cert.FiniteArgs

open Idealize.ShloMosaic Cert.Pre_finite_inputs

/-- The rank-zero shape has exactly one index. -/
instance : Subsingleton S_.Idx := ⟨fun a b => funext fun d => d.elim0⟩

/-- An extended real whose absolute value max x (-x) is strictly below +∞ is a real number:
    at x = +∞ the maximum is +∞, and at x = -∞ it is -(-∞) = +∞. -/
theorem real_of_abs_lt_top (x : EReal) (h : max x (-x) < ⊤) : ∃ r : ℝ, x = (r : EReal) := by
  induction x using EReal.rec with
  | bot => simp at h
  | coe r => exact ⟨r, rfl⟩
  | top => simp at h

/-- The 32-bit pattern with exponent field all ones and zero fraction denotes +∞. -/
theorem inf_bits : Ideal.ofBits .f32 0x7F800000#32 = (⊤ : EReal) := by
  simp [Ideal.ofBits, Ideal.ieee]

/-- One array: if the conjunction over all entries of the test |a i| < +∞ is true, every entry of a is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
      (cmpf CmpFPredicate.olt (Host.absf a) (broadcastInDim s ![] hb (constant S_ FTy.f32 0x7F800000#32)))
      (constantI S_ 1 1#1) hr hu ValueIdx.ix0 = 1#1) (i : s.Idx) : ∃ r : ℝ, a i = (r : EReal) := by
  -- the conjunction is true, so the test at the entry i is true
  have e1 := Host.reduce_andi_all _ _ hr hu _ e i
  dsimp only [cmpf, Host.absf, broadcastInDim, constant] at e1
  -- the test at i compares max (a i) (-a i) with +∞
  rw [Ideal.cmpf_def, Ideal.hostAbsf_def, Ideal.absf_def, Ideal.ofBits_def, inf_bits] at e1
  apply real_of_abs_lt_top
  by_contra hlt
  simp only [Ideal.cmp, decide_eq_false hlt] at e1
  exact absurd e1 (by decide)

/-- Under the precondition every entry of every argument array is a real number. -/
theorem real_of_pre [Cert.Pre_finite_inputs.Facts] (a0 : FVec Ideal S1024x8 .f32) (a1 a2 : FVec Ideal S8x4 .f32)
    (a3 : FVec Ideal S65536x8 .f32) (a4 : FVec Ideal S65536 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  -- the precondition at its single index is a conjunction of five tests, one per array
  have h0 := congrFun h ValueIdx.ix0
  dsimp only [fn, fn_part1, andi] at h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ e0, real_of_all a1 _ _ _ e1, real_of_all a2 _ _ _ e2, real_of_all a3 _ _ _ e3,
    real_of_all a4 _ _ _ e4⟩

end Cert.FiniteArgs

end
-- ==== Proof.Bridge.lean ====
/-
  The kernel's result function is the reference's result.

  Under the precondition all five argument arrays hold real numbers, so the membership values are nonnegative reals.
  Row by row, the kernel's result is the body's row function of the inputs, of the two groups' strengths over the
  membership values and of the packed coefficients; the reference's is the rule-by-rule form over the same data; the two
  agree.
-/
import proofs.«115596_j19104014532939_2_alg».proof.Defs
import proofs.«115596_j19104014532939_2_alg».proof.Proof.KernelValue
import proofs.«115596_j19104014532939_2_alg».proof.Proof.KernelHost
import proofs.«115596_j19104014532939_2_alg».proof.Proof.RefValue
import proofs.«115596_j19104014532939_2_alg».proof.Proof.RowBridge
import proofs.«115596_j19104014532939_2_alg».proof.Proof.Membership
import proofs.«115596_j19104014532939_2_alg».proof.Proof.FiniteArgs
import proofs.«115596_j19104014532939_2_alg».proof.Proof.Gen.Pre_finite_inputs

noncomputable section

namespace Cert.Bridge

open Idealize.ShloMosaic Idealize.ShloMosaic.TcCoe Idealize.SL.Sem Idealize.ShloMosaic.ValueIdx
open Cert.KernelIdeal Cert.KernelIdeal.Gen

/-- Under the precondition the kernel's result function is the reference's result term of the same arguments. -/
theorem G_eq_ref (m : (ℓ : Loc nD τ sig) → Buf (Elt Ideal) ℓ) (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    Cert.KernelValue.G m c
      = Cert.ReferenceIdeal.Read.val_main_v89 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  obtain ⟨h0, h1, h2, h3, h4⟩ := Cert.FiniteArgs.real_of_pre _ _ _ _ _ hpre
  funext i
  obtain ⟨b, u, rfl⟩ : ∃ (b : Fin 1024) (u : Fin 1), i = ix2 b u := ⟨i 0, i 1, eq_ix2 i⟩
  rw [Cert.RefValue.ref_row]
  unfold Cert.KernelValue.G
  rw [Gen.V_main_arg0, Cert.KernelHost.V_p1, Cert.KernelHost.V_p2, Cert.KernelHost.V_w]
  have hb : Cert.KernelValue.rowOf (ix2 b u) = b := Fin.ext rfl
  rw [hb]
  exact Cert.RowBridge.row_bridge _ Cert.RowBridge.eps_pos _ _ _ _ h0 (Cert.Membership.memb_real _ _ _ h0 h1 h2) h3 h4 b

end Cert.Bridge

end
-- ==== Proof.lean ====
/-
  An adaptive-network fuzzy inference layer: 8 inputs with 4 Gaussian fuzzy sets each, 4^8 = 65536 rules, first-order
  consequents.  For a row x of the batch the membership of input i in set l is exp(-(x_i - mu_il)² / (2(|sigma_il| + c)²));
  the strength of the rule picking set l_i for input i is the product of the eight memberships; the output is
      ∑_r (w_r / (∑ w + ε)) · (∑_i x_i · cw_ri + cb_r).
  The reference computes exactly this, building the 65536 strengths by seven flattened outer products.  The kernel
  splits the inputs into two groups of four: rule r = 256·q + k has strength p1_q · p2_k, so ∑ w = (∑ p1)(∑ p2) and the
  numerator is ∑_q p1_q · (T_b(q) + ∑_i x_i · T_i(q)), where T_i(q) = ∑_k p2_k · cw_(256q+k),i and T_b likewise for the
  biases come from ONE matrix product of the p2 rows with the weights and biases packed as a [256, 2304] matrix.
  On the extended reals the two agree once every entry is a real number — then the denominator is a positive real, the
  division is a multiplication by its reciprocal, and products distribute over the sums; the precondition (finite
  inputs) gives that, and it is needed: at an infinite entry distributivity fails.

  The modules: RuleSums (the identity between the factored and the rule-by-rule form of a row), RowForms (the body's
  row function and its rule-sum form), LibOuterProduct and GroupProducts (the outer-product chain at an index and the
  factorisation of the strengths), PackedMatrix (the packed coefficients at an index), KernelBody (the body's block
  row by row), KernelHost (the arrays the region finds), KernelValue (the kernel's result array as one function),
  RefValue (the reference's result row by row), FiniteArgs and Membership (real arguments, nonnegative real
  memberships), RowBridge and Bridge (the two results agree).  The frames of the two kernel programs are the generated
  ones; the reference's frame is its generated run; the idealization rewrote nothing, so preserves is trivial.
-/
import proofs.«115596_j19104014532939_2_alg».proof.Defs
import proofs.«115596_j19104014532939_2_alg».proof.Proof.Gen.Kernel
import proofs.«115596_j19104014532939_2_alg».proof.Proof.Gen.Kernel.Skeleton
import proofs.«115596_j19104014532939_2_alg».proof.Proof.Gen.Kernel.Launch
import proofs.«115596_j19104014532939_2_alg».proof.Proof.Gen.Kernel.Points
import proofs.«115596_j19104014532939_2_alg».proof.Proof.Gen.Kernel.Frame
import proofs.«115596_j19104014532939_2_alg».proof.Proof.Gen.KernelIdeal
import proofs.«115596_j19104014532939_2_alg».proof.Proof.Gen.KernelIdeal.Skeleton
import proofs.«115596_j19104014532939_2_alg».proof.Proof.Gen.KernelIdeal.Launch
import proofs.«115596_j19104014532939_2_alg».proof.Proof.Gen.KernelIdeal.Points
import proofs.«115596_j19104014532939_2_alg».proof.Proof.Gen.KernelIdeal.Frame
import proofs.«115596_j19104014532939_2_alg».proof.Proof.Gen.ReferenceIdeal
import proofs.«115596_j19104014532939_2_alg».proof.Proof.Gen.Pre_finite_inputs
import proofs.«115596_j19104014532939_2_alg».proof.Proof.Gen.KernelIdeal.Value
import proofs.«115596_j19104014532939_2_alg».proof.Proof.Gen.ReferenceIdeal.Run
import proofs.«115596_j19104014532939_2_alg».proof.Proof.Gen.ReferenceIdeal.Read
import proofs.«115596_j19104014532939_2_alg».proof.Proof.KernelValue
import proofs.«115596_j19104014532939_2_alg».proof.Proof.Bridge
import Idealize.ShloMosaic.Adequacy
import Idealize.ShloMosaic.Init

noncomputable section

namespace Cert.Proof

open Idealize.ShloMosaic Idealize.SL.Sem

/-- The word-level kernel runs and leaves its arguments unchanged: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same [1024, 1] result: the kernel's result
    function, which under the precondition is the reference's term of the same arguments. -/
theorem algebraic : Cert.algebraic_KernelIdeal_ReferenceIdeal := by
  intro m ρ m' ρ' hpre hagree
  refine ⟨fun c => Cert.KernelValue.G m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v89_eq, (hagree c).1, (hagree c).2.1, (hagree c).2.2.1, (hagree c).2.2.2.1,
    (hagree c).2.2.2.2]
  exact (Cert.Bridge.G_eq_ref m c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
